-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8x4096x1024 : Shape := ⟨3, ![8, 4096, 1024]⟩
abbrev S8x1024x4096 : Shape := ⟨3, ![8, 1024, 4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn {F : FTy → Type} [FloatOps F] (main_arg0 : FVec F S16384x1024 .f32) (main_arg1 : FVec F S8x4096x1024 .f32) (main_arg2 : FVec F S8x1024x4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  main_v13
-- ==== Kernel.lean ====
abbrev S16384x1024 : Shape := ⟨2, ![16384, 1024]⟩
abbrev S8x4096x1024 : Shape := ⟨3, ![8, 4096, 1024]⟩
abbrev S8x1024x4096 : Shape := ⟨3, ![8, 1024, 4096]⟩
abbrev S64 : Shape := ⟨1, ![64]⟩
abbrev S256x1024 : Shape := ⟨2, ![256, 1024]⟩
abbrev S1 : Shape := ⟨1, ![1]⟩
abbrev S1x4096x1024 : Shape := ⟨3, ![1, 4096, 1024]⟩
abbrev S1x1024x4096 : Shape := ⟨3, ![1, 1024, 4096]⟩
abbrev S4096x1024 : Shape := ⟨2, ![4096, 1024]⟩
abbrev S256x4096 : Shape := ⟨2, ![256, 4096]⟩
abbrev S1024x4096 : Shape := ⟨2, ![1024, 4096]⟩

abbrev nBuf : Space → Nat
  | .hbm => 6
  | .vmem => 8
  | .smem => 2
  | _ => 0

abbrev bufTy : (tb : Table) → Fin (tcTables nBuf tb) → BufTy
  | .hbm, ⟨0, _⟩ => ⟨S16384x1024, .f32⟩
  | .hbm, ⟨1, _⟩ => ⟨S8x4096x1024, .f32⟩
  | .hbm, ⟨2, _⟩ => ⟨S8x1024x4096, .f32⟩
  | .hbm, ⟨3, _⟩ => ⟨S8x4096x1024, .bf16⟩
  | .hbm, ⟨4, _⟩ => ⟨S8x1024x4096, .bf16⟩
  | .hbm, ⟨5, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x4096, .bf16⟩
  | .local _ .vmem, ⟨5, _⟩ => ⟨S1x1024x4096, .bf16⟩
  | .local _ .vmem, ⟨6, _⟩ => ⟨S256x1024, .f32⟩
  | .local _ .vmem, ⟨7, _⟩ => ⟨S256x1024, .f32⟩
  | .local _ .smem, ⟨0, _⟩ => ⟨S64, .i32⟩
  | .local _ .smem, ⟨1, _⟩ => ⟨S64, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  numel1_S1 : S1.numel = 1
  inb_S256x1024_S256x1024_0_0 : ∀ a, (![0, 0] : Fin 2 → Nat) a + S256x1024.size a ≤ S256x1024.size a
  h_S256x1024 : 0 < S256x1024.numel
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  dot_S256x1024_S4096x1024_S256x4096_1_1_0_0_n_n_wf : DotDims.WF S256x1024 S4096x1024 S256x4096 [1] [1] [0] [0] [] []
  dot_S256x4096_S1024x4096_S256x1024_1_1_0_0_n_n_wf : DotDims.WF S256x4096 S1024x4096 S256x1024 [1] [1] [0] [0] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev spec0_0 : Pipeline.WinSpec sig grid0.rank :=
  Pipeline.WinSpec.ofSpec (Memref.whole main_arg0) S256x1024.size reads0_0 false false 2 stage0_0 sem0_0 nbuf0_0 hstage0_0

abbrev spec0_1 : Pipeline.WinSpec sig grid0.rank :=
  Pipeline.WinSpec.ofSpec (Memref.whole main_v0) S1x4096x1024.size reads0_1 false false 2 stage0_1 sem0_1 nbuf0_1 hstage0_1

abbrev spec0_2 : Pipeline.WinSpec sig grid0.rank :=
  Pipeline.WinSpec.ofSpec (Memref.whole main_v1) S1x1024x4096.size reads0_2 false false 2 stage0_2 sem0_2 nbuf0_2 hstage0_2

abbrev spec0_3 : Pipeline.WinSpec sig grid0.rank :=
  Pipeline.WinSpec.ofSpec (Memref.whole main_v2) S256x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S256x1024.size a ≤ S16384x1024.size a), EltTy.bits .f32 = 32 ∨ (Rect.block (s := S16384x1024) S256x1024.size (cc0_transform_0 k0_off1_inb numel1_S1 pf i) h).WholeWords (EltTy.packing .f32)) ∧
  (∀ i : grid0.Coords, ∃ h : (∀ a, (cc0_transform_1 k0_off1_inb numel1_S1 pf i a + 1) * S1x4096x1024.size a ≤ S8x4096x1024.size a), EltTy.bits .bf16 = 32 ∨ (Rect.block (s := S8x4096x1024) S1x4096x1024.size (cc0_transform_1 k0_off1_inb numel1_S1 pf i) h).WholeWords (EltTy.packing .bf16)) ∧
  (∀ i : grid0.Coords, ∃ h : (∀ a, (cc0_transform_2 k0_off1_inb numel1_S1 pf i a + 1) * S1x1024x4096.size a ≤ S8x1024x4096.size a), EltTy.bits .bf16 = 32 ∨ (Rect.block (s := S8x1024x4096) S1x1024x4096.size (cc0_transform_2 k0_off1_inb numel1_S1 pf i) h).WholeWords (EltTy.packing .bf16)) ∧
  (∀ i : grid0.Coords, ∃ h : (∀ a, (cc0_transform_3 k0_off1_inb numel1_S1 pf i a + 1) * S256x1024.size a ≤ S16384x1024.size a), EltTy.bits .f32 = 32 ∨ (Rect.block (s := S16384x1024) S256x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16384x1024 : Shape := ⟨2, ![16384, 1024]⟩
abbrev S8x4096x1024 : Shape := ⟨3, ![8, 4096, 1024]⟩
abbrev S8x1024x4096 : Shape := ⟨3, ![8, 1024, 4096]⟩
abbrev S3072x1024 : Shape := ⟨2, ![3072, 1024]⟩
abbrev S1x4096x1024 : Shape := ⟨3, ![1, 4096, 1024]⟩
abbrev S4096x1024 : Shape := ⟨2, ![4096, 1024]⟩
abbrev S3072x4096 : Shape := ⟨2, ![3072, 4096]⟩
abbrev S_ : Shape := ⟨0, ![]⟩
abbrev S1x1024x4096 : Shape := ⟨3, ![1, 1024, 4096]⟩
abbrev S1024x4096 : Shape := ⟨2, ![1024, 4096]⟩
abbrev S1024x1024 : Shape := ⟨2, ![1024, 1024]⟩
abbrev S2560x1024 : Shape := ⟨2, ![2560, 1024]⟩
abbrev S2560x4096 : Shape := ⟨2, ![2560, 4096]⟩
abbrev S1536x1024 : Shape := ⟨2, ![1536, 1024]⟩
abbrev S1536x4096 : Shape := ⟨2, ![1536, 4096]⟩
abbrev S2048x1024 : Shape := ⟨2, ![2048, 1024]⟩
abbrev S2048x4096 : Shape := ⟨2, ![2048, 4096]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x4096x1024, .f32⟩
  | .hbm, ⟨2, _⟩ => ⟨S8x1024x4096, .f32⟩
  | .hbm, ⟨3, _⟩ => ⟨S3072x1024, .f32⟩
  | .hbm, ⟨4, _⟩ => ⟨S1x4096x1024, .f32⟩
  | .hbm, ⟨5, _⟩ => ⟨S4096x1024, .f32⟩
  | .hbm, ⟨6, _⟩ => ⟨S3072x4096, .f32⟩
  | .hbm, ⟨7, _⟩ => ⟨S_, .f32⟩
  | .hbm, ⟨8, _⟩ => ⟨S3072x4096, .f32⟩
  | .hbm, ⟨9, _⟩ => ⟨S3072x4096, .f32⟩
  | .hbm, ⟨10, _⟩ => ⟨S1x1024x4096, .f32⟩
  | .hbm, ⟨11, _⟩ => ⟨S1024x4096, .f32⟩
  | .hbm, ⟨12, _⟩ => ⟨S3072x1024, .f32⟩
  | .hbm, ⟨13, _⟩ => ⟨S1024x1024, .f32⟩
  | .hbm, ⟨14, _⟩ => ⟨S1x4096x1024, .f32⟩
  | .hbm, ⟨15, _⟩ => ⟨S4096x1024, .f32⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S1x1024x4096, .f32⟩
  | .hbm, ⟨21, _⟩ => ⟨S1024x4096, .f32⟩
  | .hbm, ⟨22, _⟩ => ⟨S1024x1024, .f32⟩
  | .hbm, ⟨23, _⟩ => ⟨S2560x1024, .f32⟩
  | .hbm, ⟨24, _⟩ => ⟨S1x4096x1024, .f32⟩
  | .hbm, ⟨25, _⟩ => ⟨S4096x1024, .f32⟩
  | .hbm, ⟨26, _⟩ => ⟨S2560x4096, .f32⟩
  | .hbm, ⟨27, _⟩ => ⟨S_, .f32⟩
  | .hbm, ⟨28, _⟩ => ⟨S2560x4096, .f32⟩
  | .hbm, ⟨29, _⟩ => ⟨S2560x4096, .f32⟩
  | .hbm, ⟨30, _⟩ => ⟨S1x1024x4096, .f32⟩
  | .hbm, ⟨31, _⟩ => ⟨S1024x4096, .f32⟩
  | .hbm, ⟨32, _⟩ => ⟨S2560x1024, .f32⟩
  | .hbm, ⟨33, _⟩ => ⟨S1536x1024, .f32⟩
  | .hbm, ⟨34, _⟩ => ⟨S1x4096x1024, .f32⟩
  | .hbm, ⟨35, _⟩ => ⟨S4096x1024, .f32⟩
  | .hbm, ⟨36, _⟩ => ⟨S1536x4096, .f32⟩
  | .hbm, ⟨37, _⟩ => ⟨S_, .f32⟩
  | .hbm, ⟨38, _⟩ => ⟨S1536x4096, .f32⟩
  | .hbm, ⟨39, _⟩ => ⟨S1536x4096, .f32⟩
  | .hbm, ⟨40, _⟩ => ⟨S1x1024x4096, .f32⟩
  | .hbm, ⟨41, _⟩ => ⟨S1024x4096, .f32⟩
  | .hbm, ⟨42, _⟩ => ⟨S1536x1024, .f32⟩
  | .hbm, ⟨43, _⟩ => ⟨S2048x1024, .f32⟩
  | .hbm, ⟨44, _⟩ => ⟨S1x4096x1024, .f32⟩
  | .hbm, ⟨45, _⟩ => ⟨S4096x1024, .f32⟩
  | .hbm, ⟨46, _⟩ => ⟨S2048x4096, .f32⟩
  | .hbm, ⟨47, _⟩ => ⟨S_, .f32⟩
  | .hbm, ⟨48, _⟩ => ⟨S2048x4096, .f32⟩
  | .hbm, ⟨49, _⟩ => ⟨S2048x4096, .f32⟩
  | .hbm, ⟨50, _⟩ => ⟨S1x1024x4096, .f32⟩
  | .hbm, ⟨51, _⟩ => ⟨S1024x4096, .f32⟩
  | .hbm, ⟨52, _⟩ => ⟨S2048x1024, .f32⟩
  | .hbm, ⟨53, _⟩ => ⟨S2048x1024, .f32⟩
  | .hbm, ⟨54, _⟩ => ⟨S1x4096x1024, .f32⟩
  | .hbm, ⟨55, _⟩ => ⟨S4096x1024, .f32⟩
  | .hbm, ⟨56, _⟩ => ⟨S2048x4096, .f32⟩
  | .hbm, ⟨57, _⟩ => ⟨S_, .f32⟩
  | .hbm, ⟨58, _⟩ => ⟨S2048x4096, .f32⟩
  | .hbm, ⟨59, _⟩ => ⟨S2048x4096, .f32⟩
  | .hbm, ⟨60, _⟩ => ⟨S1x1024x4096, .f32⟩
  | .hbm, ⟨61, _⟩ => ⟨S1024x4096, .f32⟩
  | .hbm, ⟨62, _⟩ => ⟨S2048x1024, .f32⟩
  | .hbm, ⟨63, _⟩ => ⟨S2560x1024, .f32⟩
  | .hbm, ⟨64, _⟩ => ⟨S1x4096x1024, .f32⟩
  | .hbm, ⟨65, _⟩ => ⟨S4096x1024, .f32⟩
  | .hbm, ⟨66, _⟩ => ⟨S2560x4096, .f32⟩
  | .hbm, ⟨67, _⟩ => ⟨S_, .f32⟩
  | .hbm, ⟨68, _⟩ => ⟨S2560x4096, .f32⟩
  | .hbm, ⟨69, _⟩ => ⟨S2560x4096, .f32⟩
  | .hbm, ⟨70, _⟩ => ⟨S1x1024x4096, .f32⟩
  | .hbm, ⟨71, _⟩ => ⟨S1024x4096, .f32⟩
  | .hbm, ⟨72, _⟩ => ⟨S2560x1024, .f32⟩
  | .hbm, ⟨73, _⟩ => ⟨S1536x1024, .f32⟩
  | .hbm, ⟨74, _⟩ => ⟨S1x4096x1024, .f32⟩
  | .hbm, ⟨75, _⟩ => ⟨S4096x1024, .f32⟩
  | .hbm, ⟨76, _⟩ => ⟨S1536x4096, .f32⟩
  | .hbm, ⟨77, _⟩ => ⟨S_, .f32⟩
  | .hbm, ⟨78, _⟩ => ⟨S1536x4096, .f32⟩
  | .hbm, ⟨79, _⟩ => ⟨S1536x4096, .f32⟩
  | .hbm, ⟨80, _⟩ => ⟨S1x1024x4096, .f32⟩
  | .hbm, ⟨81, _⟩ => ⟨S1024x4096, .f32⟩
  | .hbm, ⟨82, _⟩ => ⟨S1536x1024, .f32⟩
  | .hbm, ⟨83, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call1_cst : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call2_cst : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call3_cst : Ref sig .tc := ⟨.hbm, 37, rfl⟩
abbrev main_call3_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call4_cst : Ref sig .tc := ⟨.hbm, 47, rfl⟩
abbrev main_call4_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call5_cst : Ref sig .tc := ⟨.hbm, 57, rfl⟩
abbrev main_call5_v0 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call6_cst : Ref sig .tc := ⟨.hbm, 67, rfl⟩
abbrev main_call6_v0 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call7_cst : Ref sig .tc := ⟨.hbm, 77, rfl⟩
abbrev main_call7_v0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]

class Facts₀ : Prop where
  slices_S16384x1024_S3072x1024_0_0 : S16384x1024.Slices ![0, 0] S3072x1024
  slices_S8x4096x1024_S1x4096x1024_0_0_0 : S8x4096x1024.Slices ![0, 0, 0] S1x4096x1024
  shapeCasts_S1x4096x1024_S4096x1024 : S1x4096x1024.ShapeCasts S4096x1024
  bcast_S_S3072x4096 : S_.BroadcastsInDim S3072x4096 (![] : Fin 0 → Fin S3072x4096.rank)
  slices_S8x1024x4096_S1x1024x4096_0_0_0 : S8x1024x4096.Slices ![0, 0, 0] S1x1024x4096
  shapeCasts_S1x1024x4096_S1024x4096 : S1x1024x4096.ShapeCasts S1024x4096
  slices_S16384x1024_S1024x1024_3072_0 : S16384x1024.Slices ![3072, 0] S1024x1024
  slices_S8x4096x1024_S1x4096x1024_1_0_0 : S8x4096x1024.Slices ![1, 0, 0] S1x4096x1024
  bcast_S_S1024x4096 : S_.BroadcastsInDim S1024x4096 (![] : Fin 0 → Fin S1024x4096.rank)
  slices_S8x1024x4096_S1x1024x4096_1_0_0 : S8x1024x4096.Slices ![1, 0, 0] S1x1024x4096
  slices_S16384x1024_S2560x1024_4096_0 : S16384x1024.Slices ![4096, 0] S2560x1024
  slices_S8x4096x1024_S1x4096x1024_2_0_0 : S8x4096x1024.Slices ![2, 0, 0] S1x4096x1024
  bcast_S_S2560x4096 : S_.BroadcastsInDim S2560x4096 (![] : Fin 0 → Fin S2560x4096.rank)
  slices_S8x1024x4096_S1x1024x4096_2_0_0 : S8x1024x4096.Slices ![2, 0, 0] S1x1024x4096
  slices_S16384x1024_S1536x1024_6656_0 : S16384x1024.Slices ![6656, 0] S1536x1024
  slices_S8x4096x1024_S1x4096x1024_3_0_0 : S8x4096x1024.Slices ![3, 0, 0] S1x4096x1024
  bcast_S_S1536x4096 : S_.BroadcastsInDim S1536x4096 (![] : Fin 0 → Fin S1536x4096.rank)
  slices_S8x1024x4096_S1x1024x4096_3_0_0 : S8x1024x4096.Slices ![3, 0, 0] S1x1024x4096
  slices_S16384x1024_S2048x1024_8192_0 : S16384x1024.Slices ![8192, 0] S2048x1024
  slices_S8x4096x1024_S1x4096x1024_4_0_0 : S8x4096x1024.Slices ![4, 0, 0] S1x4096x1024
  bcast_S_S2048x4096 : S_.BroadcastsInDim S2048x4096 (![] : Fin 0 → Fin S2048x4096.rank)
  slices_S8x1024x4096_S1x1024x4096_4_0_0 : S8x1024x4096.Slices ![4, 0, 0] S1x1024x4096
  slices_S16384x1024_S2048x1024_10240_0 : S16384x1024.Slices ![10240, 0] S2048x1024
  slices_S8x4096x1024_S1x4096x1024_5_0_0 : S8x4096x1024.Slices ![5, 0, 0] S1x4096x1024
  slices_S8x1024x4096_S1x1024x4096_5_0_0 : S8x1024x4096.Slices ![5, 0, 0] S1x1024x4096
  slices_S16384x1024_S2560x1024_12288_0 : S16384x1024.Slices ![12288, 0] S2560x1024
  slices_S8x4096x1024_S1x4096x1024_6_0_0 : S8x4096x1024.Slices ![6, 0, 0] S1x4096x1024
  slices_S8x1024x4096_S1x1024x4096_6_0_0 : S8x1024x4096.Slices ![6, 0, 0] S1x1024x4096
  slices_S16384x1024_S1536x1024_14848_0 : S16384x1024.Slices ![14848, 0] S1536x1024
  slices_S8x4096x1024_S1x4096x1024_7_0_0 : S8x4096x1024.Slices ![7, 0, 0] S1x4096x1024
  slices_S8x1024x4096_S1x1024x4096_7_0_0 : S8x1024x4096.Slices ![7, 0, 0] S1x1024x4096
  concatenates_S3072x1024_S1024x1024_S2560x1024_S1536x1024_S2048x1024_S2048x1024_S2560x1024_S1536x1024_S16384x1024_d0 : Shape.Concatenates [S3072x1024, S1024x1024, S2560x1024, S1536x1024, S2048x1024, S2048x1024, S2560x1024, S1536x1024] S16384x1024 0
  dot_S3072x1024_S4096x1024_S3072x4096_1_1_0_0_n_n_wf : DotDims.WF S3072x1024 S4096x1024 S3072x4096 [1] [1] [0] [0] [] []
  dot_S3072x4096_S1024x4096_S3072x1024_1_1_0_0_n_n_wf : DotDims.WF S3072x4096 S1024x4096 S3072x1024 [1] [1] [0] [0] [] []
  dot_S1024x1024_S4096x1024_S1024x4096_1_1_0_0_n_n_wf : DotDims.WF S1024x1024 S4096x1024 S1024x4096 [1] [1] [0] [0] [] []
  dot_S1024x4096_S1024x4096_S1024x1024_1_1_0_0_n_n_wf : DotDims.WF S1024x4096 S1024x4096 S1024x1024 [1] [1] [0] [0] [] []
  dot_S2560x1024_S4096x1024_S2560x4096_1_1_0_0_n_n_wf : DotDims.WF S2560x1024 S4096x1024 S2560x4096 [1] [1] [0] [0] [] []
  dot_S2560x4096_S1024x4096_S2560x1024_1_1_0_0_n_n_wf : DotDims.WF S2560x4096 S1024x4096 S2560x1024 [1] [1] [0] [0] [] []
  dot_S1536x1024_S4096x1024_S1536x4096_1_1_0_0_n_n_wf : DotDims.WF S1536x1024 S4096x1024 S1536x4096 [1] [1] [0] [0] [] []
  dot_S1536x4096_S1024x4096_S1536x1024_1_1_0_0_n_n_wf : DotDims.WF S1536x4096 S1024x4096 S1536x1024 [1] [1] [0] [0] [] []
  dot_S2048x1024_S4096x1024_S2048x4096_1_1_0_0_n_n_wf : DotDims.WF S2048x1024 S4096x1024 S2048x4096 [1] [1] [0] [0] [] []
  dot_S2048x4096_S1024x4096_S2048x1024_1_1_0_0_n_n_wf : DotDims.WF S2048x4096 S1024x4096 S2048x1024 [1] [1] [0] [0] [] []

variable [Facts₀]

def dot_S3072x1024_S4096x1024_S3072x4096_1_1_0_0_n_n : DotDims S3072x1024 S4096x1024 S3072x4096 where
  lhsContracting := [1]
  rhsContracting := [1]
  lhsNonContracting := [0]
  rhsNonContracting := [0]
  lhsBatch := []
  rhsBatch := []
  wf := dot_S3072x1024_S4096x1024_S3072x4096_1_1_0_0_n_n_wf
def dot_S3072x4096_S1024x4096_S3072x1024_1_1_0_0_n_n : DotDims S3072x4096 S1024x4096 S3072x1024 where
  lhsContracting := [1]
  rhsContracting := [1]
  lhsNonContracting := [0]
  rhsNonContracting := [0]
  lhsBatch := []
  rhsBatch := []
  wf := dot_S3072x4096_S1024x4096_S3072x1024_1_1_0_0_n_n_wf
def dot_S1024x1024_S4096x1024_S1024x4096_1_1_0_0_n_n : DotDims S1024x1024 S4096x1024 S1024x4096 where
  lhsContracting := [1]
  rhsContracting := [1]
  lhsNonContracting := [0]
  rhsNonContracting := [0]
  lhsBatch := []
  rhsBatch := []
  wf := dot_S1024x1024_S4096x1024_S1024x4096_1_1_0_0_n_n_wf
def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf
def dot_S2560x1024_S4096x1024_S2560x4096_1_1_0_0_n_n : DotDims S2560x1024 S4096x1024 S2560x4096 where
  lhsContracting := [1]
  rhsContracting := [1]
  lhsNonContracting := [0]
  rhsNonContracting := [0]
  lhsBatch := []
  rhsBatch := []
  wf := dot_S2560x1024_S4096x1024_S2560x4096_1_1_0_0_n_n_wf
def dot_S2560x4096_S1024x4096_S2560x1024_1_1_0_0_n_n : DotDims S2560x4096 S1024x4096 S2560x1024 where
  lhsContracting := [1]
  rhsContracting := [1]
  lhsNonContracting := [0]
  rhsNonContracting := [0]
  lhsBatch := []
  rhsBatch := []
  wf := dot_S2560x4096_S1024x4096_S2560x1024_1_1_0_0_n_n_wf
def dot_S1536x1024_S4096x1024_S1536x4096_1_1_0_0_n_n : DotDims S1536x1024 S4096x1024 S1536x4096 where
  lhsContracting := [1]
  rhsContracting := [1]
  lhsNonContracting := [0]
  rhsNonContracting := [0]
  lhsBatch := []
  rhsBatch := []
  wf := dot_S1536x1024_S4096x1024_S1536x4096_1_1_0_0_n_n_wf
def dot_S1536x4096_S1024x4096_S1536x1024_1_1_0_0_n_n : DotDims S1536x4096 S1024x4096 S1536x1024 where
  lhsContracting := [1]
  rhsContracting := [1]
  lhsNonContracting := [0]
  rhsNonContracting := [0]
  lhsBatch := []
  rhsBatch := []
  wf := dot_S1536x4096_S1024x4096_S1536x1024_1_1_0_0_n_n_wf
def dot_S2048x1024_S4096x1024_S2048x4096_1_1_0_0_n_n : DotDims S2048x1024 S4096x1024 S2048x4096 where
  lhsContracting := [1]
  rhsContracting := [1]
  lhsNonContracting := [0]
  rhsNonContracting := [0]
  lhsBatch := []
  rhsBatch := []
  wf := dot_S2048x1024_S4096x1024_S2048x4096_1_1_0_0_n_n_wf
def dot_S2048x4096_S1024x4096_S2048x1024_1_1_0_0_n_n : DotDims S2048x4096 S1024x4096 S2048x1024 where
  lhsContracting := [1]
  rhsContracting := [1]
  lhsNonContracting := [0]
  rhsNonContracting := [0]
  lhsBatch := []
  rhsBatch := []
  wf := dot_S2048x4096_S1024x4096_S2048x1024_1_1_0_0_n_n_wf

class Facts : Prop extends Facts₀ where

variable [Facts]
-- ==== Proof.Spec.lean ====
/-
  The mathematics of the certificate, with no program in sight.

  16384 token rows are dealt to 8 experts in consecutive runs of 3072, 1024, 2560, 1536, 2048, 2048, 2560 and 1536
  rows.  Every run is a whole number of 256-row tiles (12, 4, 10, 6, 8, 8, 10, 6 of them, 64 in all), so the expert of
  a row is the expert of its tile.  Each expert `e` has an input matrix `wi[e]` (4096 × 1024) and an output matrix
  `wo[e]` (1024 × 4096), and the result's row `p`, owned by expert `e`, is

      out[p, d] = Σ_f  max (Σ_k x[p, k] · wi[e, f, k], 0) · wo[e, d, f].

  `G` below is that function over the extended reals.  Both programs are shown to compute it.
-/
import Idealize.ShloMosaic.PureOps.Ideal
import Idealize.ShloMosaic.Lib.ValueIdx

noncomputable section

open scoped BigOperators

namespace Cert.Spec

open Idealize.ShloMosaic Idealize.ShloMosaic.ValueIdx

/-- The expert whose rows tile `t` holds: the experts own 12, 4, 10, 6, 8, 8, 10 and 6 consecutive tiles. -/
def expertOfTile (t : Nat) : Nat :=
  if t < 12 then 0 else if t < 16 then 1 else if t < 26 then 2 else if t < 32 then 3
  else if t < 40 then 4 else if t < 48 then 5 else if t < 58 then 6 else 7

theorem expertOfTile_lt (t : Nat) : expertOfTile t < 8 := by
  unfold expertOfTile; split_ifs <;> omega

/-- The expert that owns row `p`: the expert of the 256-row tile the row lies in. -/
def expertOfRow (p : Fin 16384) : Fin 8 := ⟨expertOfTile (p.val / 256), expertOfTile_lt _⟩

/-- Row `r` of tile `t` belongs to tile `t`'s expert. -/
theorem expertOfRow_tile (t r : Nat) (hr : r < 256) (h : t * 256 + r < 16384) :
    (expertOfRow ⟨t * 256 + r, h⟩).val = expertOfTile t := by
  show expertOfTile ((t * 256 + r) / 256) = expertOfTile t
  congr 1; omega

/-- Row `r` of a run of `n` rows that starts at row `off` belongs to expert `e` when the run is expert `e`'s: the
    run's first and last tile are both `e`'s, and the tiles of one expert are consecutive. -/
theorem expertOfRow_run (off n e r : Nat) (hr : r < n) (h : off + r < 16384)
    (hrun : ∀ t, off / 256 ≤ t → t ≤ (off + n - 1) / 256 → expertOfTile t = e) :
    (expertOfRow ⟨off + r, h⟩).val = e := by
  show expertOfTile ((off + r) / 256) = e
  refine hrun _ (Nat.div_le_div_right (Nat.le_add_right _ _)) (Nat.div_le_div_right (by omega))

/-- THE RESULT both programs compute, entry by entry: the token's row through its expert's two matrices with the
    positive part taken in between. -/
def G (x : (⟨2, ![16384, 1024]⟩ : Shape).Idx → EReal) (wi : (⟨3, ![8, 4096, 1024]⟩ : Shape).Idx → EReal)
    (wo : (⟨3, ![8, 1024, 4096]⟩ : Shape).Idx → EReal) : (⟨2, ![16384, 1024]⟩ : Shape).Idx → EReal :=
  fun j => ∑ f : Fin 4096,
    max (∑ k : Fin 1024, x (ix2 (j 0) k) * wi (ix3 (expertOfRow (j 0)) f k)) (Ideal.ofBits .f32 0x00000000#32)
      * wo (ix3 (expertOfRow (j 0)) (j 1) f)

/-- `G` at an index written by coordinates, for an expert known to own the row. -/
theorem G_at (x : (⟨2, ![16384, 1024]⟩ : Shape).Idx → EReal) (wi : (⟨3, ![8, 4096, 1024]⟩ : Shape).Idx → EReal)
    (wo : (⟨3, ![8, 1024, 4096]⟩ : Shape).Idx → EReal) (p : Fin 16384) (d : Fin 1024) (e : Fin 8)
    (he : (expertOfRow p).val = e.val) :
    G x wi wo (ix2 p d) = ∑ f : Fin 4096,
      max (∑ k : Fin 1024, x (ix2 p k) * wi (ix3 e f k)) (Ideal.ofBits .f32 0x00000000#32) * wo (ix3 e d f) := by
  obtain rfl : expertOfRow p = e := Fin.ext he
  rfl

end Cert.Spec

end
-- ==== Proof.TablesBits.lean ====
/-
  The pallas_call's two prefetched tables are constants of the program: the first lists, tile by tile, the expert the
  tile belongs to (twelve 0s, four 1s, ten 2s, six 3s, eight 4s, eight 5s, ten 6s, six 7s), the second lists the tiles
  themselves (0, 1, …, 63).  So at grid point `i` the row windows (input and output) are at tile `i` and the two weight
  windows at the slab of tile `i`'s expert; every such block lies inside its array, which is the side condition the
  pipeline asks of the tables.
-/
import proofs.«139479_j69965017252291_2_alg».proof.Proof.Gen.Kernel.Frame
import Idealize.ShloMosaic.Lib.StableHlo.Run
import Idealize.ShloMosaic.Lib.Affine
import Idealize.ShloMosaic.Lib.ValueIdx
import proofs.«139479_j69965017252291_2_alg».proof.Proof.Spec

set_option maxRecDepth 16384

noncomputable section

namespace Cert.Kernel.Tables

open Cert.Kernel Cert.Kernel.Gen
open Cert.Spec
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- Entry `k` of the first table is the expert of tile `k`; entry `k` of the second is `k` itself. -/
theorem lit0_toNat : ∀ k : Fin 64, (lit0 k).toNat = expertOfTile k.val := by decide
theorem lit1_toNat : ∀ k : Fin 64, (lit1 k).toNat = k.val := by decide

/-- Both tables are constants of the program: when the region is entered they hold their literals. -/
theorem tbl0_eq : tbl m 0 = fun i => lit0 (S64.rowMajor i) := by
  unfold tbl
  show V m 0 main_c = _
  dsimp only [V, hostOps0]
  after_results
  rfl

theorem tbl1_eq : tbl m 1 = fun i => lit1 (S64.rowMajor i) := by
  unfold tbl
  show V m 0 main_c_0 = _
  dsimp only [V, hostOps0]
  after_results
  rfl

/-- The grid coordinate as a 32-bit word and back is the coordinate. -/
theorem coord_word (i : grid0.Coords) : (Scalar.indexCast (BitVec.ofNat 32 (i 0).val)).toNat = (i 0).val := by
  show (BitVec.ofNat 32 (i 0).val).toNat = (i 0).val
  rw [BitVec.toNat_ofNat]
  have h : (i 0).val < 64 := (i 0).isLt
  omega

/-- The flat position of the one entry a unit rectangle at offset `k` of a 64-entry table reads is `k`. -/
theorem unit_pos (k : Nat) (hk : k < 64) (off : Fin 1 → Nat) (hoff : off 0 = k) (inb : ∀ a, off a + S1.size a ≤ S64.size a)
    (h1 : 0 < S1.numel) :
    S64.rowMajor ((Rect.unit (s := S64) off S1.size inb).emb (Shape.Idx.first h1)) = ⟨k, hk⟩ := by
  apply Fin.ext
  rw [Shape.rowMajor_val_one]
  show off 0 + 1 * (Shape.Idx.first h1 (0 : Fin 1)).val = k
  have : (Shape.Idx.first h1 (0 : Fin 1)).val = 0 := by
    have := (Shape.Idx.first h1 (0 : Fin 1)).isLt
    have e : S1.size (0 : Fin 1) = 1 := by decide
    omega
  rw [this, hoff]; omega

/-- The word an index map reads from the first table at grid point `i` is the expert of tile `i`, -/
theorem word0 (i : grid0.Coords) (inb : ∀ a, (![(Scalar.indexCast (BitVec.ofNat 32 (i 0).val)).toNat] : Fin 1 → Nat) a + S1.size a ≤ S64.size a)
    (h1 : S1.numel = 1) :
    ((tbl m).at 0 (Rect.unit (s := S64) ![(Scalar.indexCast (BitVec.ofNat 32 (i 0).val)).toNat] S1.size inb) h1).toNat
      = expertOfTile (i 0).val := by
  refine (congrArg BitVec.toNat (congrFun (tbl0_eq m) _)).trans ?_
  refine (congrArg (fun k => (lit0 k).toNat) (unit_pos (i 0).val (i 0).isLt _ (coord_word i) inb (h1.symm ▸ Nat.one_pos))).trans ?_
  exact lit0_toNat ⟨(i 0).val, (i 0).isLt⟩

/-- and from the second table, `i` itself. -/
theorem word1 (i : grid0.Coords) (inb : ∀ a, (![(Scalar.indexCast (BitVec.ofNat 32 (i 0).val)).toNat] : Fin 1 → Nat) a + S1.size a ≤ S64.size a)
    (h1 : S1.numel = 1) :
    ((tbl m).at 1 (Rect.unit (s := S64) ![(Scalar.indexCast (BitVec.ofNat 32 (i 0).val)).toNat] S1.size inb) h1).toNat
      = (i 0).val := by
  refine (congrArg BitVec.toNat (congrFun (tbl1_eq m) _)).trans ?_
  refine (congrArg (fun k => (lit1 k).toNat) (unit_pos (i 0).val (i 0).isLt _ (coord_word i) inb (h1.symm ▸ Nat.one_pos))).trans ?_
  exact lit1_toNat ⟨(i 0).val, (i 0).isLt⟩

/-! ## The four index maps in closed form

Tile `i` of the rows (input and output), and the weight slabs of tile `i`'s expert. -/

theorem transform_0 (i : grid0.Coords) : cc0_transform_0 k0_off1_inb numel1_S1 (tbl m) i = ![(i 0).val, 0] := by
  funext a
  fin_cases a
  · exact word1 m i (k0_off1_inb i) numel1_S1
  · rfl

theorem transform_1 (i : grid0.Coords) : cc0_transform_1 k0_off1_inb numel1_S1 (tbl m) i = ![expertOfTile (i 0).val, 0, 0] := by
  funext a
  fin_cases a
  · exact word0 m i (k0_off1_inb i) numel1_S1
  · rfl
  · rfl

theorem transform_2 (i : grid0.Coords) : cc0_transform_2 k0_off1_inb numel1_S1 (tbl m) i = ![expertOfTile (i 0).val, 0, 0] := by
  funext a
  fin_cases a
  · exact word0 m i (k0_off1_inb i) numel1_S1
  · rfl
  · rfl

theorem transform_3 (i : grid0.Coords) : cc0_transform_3 k0_off1_inb numel1_S1 (tbl m) i = ![(i 0).val, 0] := by
  funext a
  fin_cases a
  · exact word1 m i (k0_off1_inb i) numel1_S1
  · rfl

/-! ## The pipeline's side condition

Every block lies inside its array — tile `i < 64` of 256 rows inside 16384 rows, slab `e < 8` inside 8 slabs — and the
half-width weights move in whole words because a slab has an even number (4096, 1024) of rows. -/

theorem ok : Ok m := by
  refine ⟨fun i => ⟨fun a => ?_, Or.inl rfl⟩, fun i => ⟨fun a => ?_, Or.inr (Affine.block_words_dvd (by decide) (by decide))⟩,
    fun i => ⟨fun a => ?_, Or.inr (Affine.block_words_dvd (by decide) (by decide))⟩, fun i => ⟨fun a => ?_, Or.inl rfl⟩⟩
  · rw [transform_0]
    have h : (i 0).val < 64 := (i 0).isLt
    fin_cases a <;> simp [S256x1024, S16384x1024] <;> omega
  · rw [transform_1]
    have h := expertOfTile_lt (i 0).val
    fin_cases a <;> simp [S1x4096x1024, S8x4096x1024] <;> omega
  · rw [transform_2]
    have h := expertOfTile_lt (i 0).val
    fin_cases a <;> simp [S1x1024x4096, S8x1024x4096] <;> omega
  · rw [transform_3]
    have h : (i 0).val < 64 := (i 0).isLt
    fin_cases a <;> simp [S256x1024, S16384x1024] <;> omega

end Cert.Kernel.Tables

end
-- ==== Proof.TablesIdeal.lean ====
/-
  The pallas_call's two prefetched tables are constants of the program: the first lists, tile by tile, the expert the
  tile belongs to (twelve 0s, four 1s, ten 2s, six 3s, eight 4s, eight 5s, ten 6s, six 7s), the second lists the tiles
  themselves (0, 1, …, 63).  So at grid point `i` the row windows (input and output) are at tile `i` and the two weight
  windows at the slab of tile `i`'s expert; every such block lies inside its array, which is the side condition the
  pipeline asks of the tables.
-/
import proofs.«139479_j69965017252291_2_alg».proof.Proof.Gen.KernelIdeal.Frame
import Idealize.ShloMosaic.Lib.StableHlo.Run
import Idealize.ShloMosaic.Lib.Affine
import Idealize.ShloMosaic.Lib.ValueIdx
import proofs.«139479_j69965017252291_2_alg».proof.Proof.Spec

set_option maxRecDepth 16384

noncomputable section

namespace Cert.KernelIdeal.Tables

open Cert.KernelIdeal Cert.KernelIdeal.Gen
open Cert.Spec
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- Entry `k` of the first table is the expert of tile `k`; entry `k` of the second is `k` itself. -/
theorem lit0_toNat : ∀ k : Fin 64, (lit0 k).toNat = expertOfTile k.val := by decide
theorem lit1_toNat : ∀ k : Fin 64, (lit1 k).toNat = k.val := by decide

/-- Both tables are constants of the program: when the region is entered they hold their literals. -/
theorem tbl0_eq : tbl m 0 = fun i => lit0 (S64.rowMajor i) := by
  unfold tbl
  show V m 0 main_c = _
  dsimp only [V, hostOps0]
  after_results
  rfl

theorem tbl1_eq : tbl m 1 = fun i => lit1 (S64.rowMajor i) := by
  unfold tbl
  show V m 0 main_c_0 = _
  dsimp only [V, hostOps0]
  after_results
  rfl

/-- The grid coordinate as a 32-bit word and back is the coordinate. -/
theorem coord_word (i : grid0.Coords) : (Scalar.indexCast (BitVec.ofNat 32 (i 0).val)).toNat = (i 0).val := by
  show (BitVec.ofNat 32 (i 0).val).toNat = (i 0).val
  rw [BitVec.toNat_ofNat]
  have h : (i 0).val < 64 := (i 0).isLt
  omega

/-- The flat position of the one entry a unit rectangle at offset `k` of a 64-entry table reads is `k`. -/
theorem unit_pos (k : Nat) (hk : k < 64) (off : Fin 1 → Nat) (hoff : off 0 = k) (inb : ∀ a, off a + S1.size a ≤ S64.size a)
    (h1 : 0 < S1.numel) :
    S64.rowMajor ((Rect.unit (s := S64) off S1.size inb).emb (Shape.Idx.first h1)) = ⟨k, hk⟩ := by
  apply Fin.ext
  rw [Shape.rowMajor_val_one]
  show off 0 + 1 * (Shape.Idx.first h1 (0 : Fin 1)).val = k
  have : (Shape.Idx.first h1 (0 : Fin 1)).val = 0 := by
    have := (Shape.Idx.first h1 (0 : Fin 1)).isLt
    have e : S1.size (0 : Fin 1) = 1 := by decide
    omega
  rw [this, hoff]; omega

/-- The word an index map reads from the first table at grid point `i` is the expert of tile `i`, -/
theorem word0 (i : grid0.Coords) (inb : ∀ a, (![(Scalar.indexCast (BitVec.ofNat 32 (i 0).val)).toNat] : Fin 1 → Nat) a + S1.size a ≤ S64.size a)
    (h1 : S1.numel = 1) :
    ((tbl m).at 0 (Rect.unit (s := S64) ![(Scalar.indexCast (BitVec.ofNat 32 (i 0).val)).toNat] S1.size inb) h1).toNat
      = expertOfTile (i 0).val := by
  refine (congrArg BitVec.toNat (congrFun (tbl0_eq m) _)).trans ?_
  refine (congrArg (fun k => (lit0 k).toNat) (unit_pos (i 0).val (i 0).isLt _ (coord_word i) inb (h1.symm ▸ Nat.one_pos))).trans ?_
  exact lit0_toNat ⟨(i 0).val, (i 0).isLt⟩

/-- and from the second table, `i` itself. -/
theorem word1 (i : grid0.Coords) (inb : ∀ a, (![(Scalar.indexCast (BitVec.ofNat 32 (i 0).val)).toNat] : Fin 1 → Nat) a + S1.size a ≤ S64.size a)
    (h1 : S1.numel = 1) :
    ((tbl m).at 1 (Rect.unit (s := S64) ![(Scalar.indexCast (BitVec.ofNat 32 (i 0).val)).toNat] S1.size inb) h1).toNat
      = (i 0).val := by
  refine (congrArg BitVec.toNat (congrFun (tbl1_eq m) _)).trans ?_
  refine (congrArg (fun k => (lit1 k).toNat) (unit_pos (i 0).val (i 0).isLt _ (coord_word i) inb (h1.symm ▸ Nat.one_pos))).trans ?_
  exact lit1_toNat ⟨(i 0).val, (i 0).isLt⟩

/-! ## The four index maps in closed form

Tile `i` of the rows (input and output), and the weight slabs of tile `i`'s expert. -/

theorem transform_0 (i : grid0.Coords) : cc0_transform_0 k0_off1_inb numel1_S1 (tbl m) i = ![(i 0).val, 0] := by
  funext a
  fin_cases a
  · exact word1 m i (k0_off1_inb i) numel1_S1
  · rfl

theorem transform_1 (i : grid0.Coords) : cc0_transform_1 k0_off1_inb numel1_S1 (tbl m) i = ![expertOfTile (i 0).val, 0, 0] := by
  funext a
  fin_cases a
  · exact word0 m i (k0_off1_inb i) numel1_S1
  · rfl
  · rfl

theorem transform_2 (i : grid0.Coords) : cc0_transform_2 k0_off1_inb numel1_S1 (tbl m) i = ![expertOfTile (i 0).val, 0, 0] := by
  funext a
  fin_cases a
  · exact word0 m i (k0_off1_inb i) numel1_S1
  · rfl
  · rfl

theorem transform_3 (i : grid0.Coords) : cc0_transform_3 k0_off1_inb numel1_S1 (tbl m) i = ![(i 0).val, 0] := by
  funext a
  fin_cases a
  · exact word1 m i (k0_off1_inb i) numel1_S1
  · rfl

/-! ## The pipeline's side condition

Every block lies inside its array — tile `i < 64` of 256 rows inside 16384 rows, slab `e < 8` inside 8 slabs — and the
half-width weights move in whole words because a slab has an even number (4096, 1024) of rows. -/

theorem ok : Ok m := by
  refine ⟨fun i => ⟨fun a => ?_, Or.inl rfl⟩, fun i => ⟨fun a => ?_, Or.inr (Affine.block_words_dvd (by decide) (by decide))⟩,
    fun i => ⟨fun a => ?_, Or.inr (Affine.block_words_dvd (by decide) (by decide))⟩, fun i => ⟨fun a => ?_, Or.inl rfl⟩⟩
  · rw [transform_0]
    have h : (i 0).val < 64 := (i 0).isLt
    fin_cases a <;> simp [S256x1024, S16384x1024] <;> omega
  · rw [transform_1]
    have h := expertOfTile_lt (i 0).val
    fin_cases a <;> simp [S1x4096x1024, S8x4096x1024] <;> omega
  · rw [transform_2]
    have h := expertOfTile_lt (i 0).val
    fin_cases a <;> simp [S1x1024x4096, S8x1024x4096] <;> omega
  · rw [transform_3]
    have h : (i 0).val < 64 := (i 0).isLt
    fin_cases a <;> simp [S256x1024, S16384x1024] <;> omega

end Cert.KernelIdeal.Tables

end
-- ==== Proof.LibDotRows.lean ====
/-
  A product of two matrices stored row by row, read at an index written by coordinates.

  For dimension numbers that contract the LAST axis of both operands — no batch axis, `[M, K] · [N, K] → [M, N]`, the
  product of the left matrix with the transpose of the right one — the product reads, at `(p, j)`,
  `Σ_k lhs (p, k) · rhs (j, k)` over the `K` values of the contracted coordinate.  This holds for the device's
  product accumulated into the zero splat (the accumulator contributes `0`) and for the host's `dot_general` alike, so
  the two agree entry by entry.  The dimension numbers enter only through four facts about where they send an output
  index and a contraction index (`hl0 … hr1`), which hold by unfolding for any record of this form.  General: nothing
  here mentions a program.
-/
import Idealize.ShloMosaic.PureOps.Ideal.Laws
import Idealize.ShloMosaic.Lib.ValueIdx

noncomputable section

namespace Cert.LibDotRows

open Idealize.ShloMosaic Idealize.ShloMosaic.ValueIdx

/-- The operand indices of the contraction, re-indexed by the contracted coordinate. -/
theorem sum_rows {M K N : ℕ} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : (⟨2, ![M, K]⟩ : Shape).Idx → EReal) (rhs : (⟨2, ![N, K]⟩ : Shape).Idx → EReal) (p : Fin M) (j : Fin N) :
    (∑ q : D.contr.Idx, lhs (D.lhsIdx (ix2 p j) q) * rhs (D.rhsIdx (ix2 p j) q))
      = ∑ k : Fin K, lhs (ix2 p k) * rhs (ix2 j k) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-- `[M, K] · [N, K]` on the device into the zero splat, at `(p, j)`, is `Σ_k lhs (p, k) · rhs (j, k)`. -/
theorem matmul_zero_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    FloatOps.matmul D prec lhs rhs (constant ⟨2, ![M, N]⟩ .f32 0x00000000#32) (ix2 p j)
      = ∑ k : Fin K, lhs (ix2 p k) * rhs (ix2 j k) := by
  rw [Ideal.matmul_constant_zero_apply]
  exact sum_rows D hr hs hl0 hl1 hr0 hr1 lhs rhs p j

/-- The host's `[M, K] · [N, K]`, at `(p, j)`, is `Σ_k lhs (p, k) · rhs (j, k)`. -/
theorem dotGeneral_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    Host.dotGeneral D prec lhs rhs (ix2 p j) = ∑ k : Fin K, lhs (ix2 p k) * rhs (ix2 j k) := by
  show FloatOps.dotGeneral D prec .single lhs rhs (ix2 p j) = _
  rw [Ideal.dotGeneral_apply]
  exact sum_rows D hr hs hl0 hl1 hr0 hr1 lhs rhs p j

end Cert.LibDotRows

end
-- ==== Proof.Payload.lean ====
/-
  The kernel body's arithmetic at one entry of its 256 × 1024 output block, over the extended reals.

  The body rounds its row block `x` to half width, multiplies it with the transposed input matrix of the tile's
  expert (a product contracting the last axis of both operands, accumulated into zeros), takes the positive part, rounds
  again, and multiplies with the transposed output matrix.  Over the extended reals a rounding is the identity and a
  product into zeros is the plain sum of products, so entry `(p, q)` of the block is
  `Σ_f max (Σ_k x[p, k] · wi[0, f, k], 0) · wo[0, q, f]` of the three blocks the body loads (the weight blocks carry a
  leading axis of extent one, which the body drops).
-/
import proofs.«139479_j69965017252291_2_alg».proof.Proof.Gen.KernelIdeal.Skeleton
import proofs.«139479_j69965017252291_2_alg».proof.Proof.LibDotRows
import Idealize.ShloMosaic.Lib.ValueLayout

noncomputable section

open scoped BigOperators

namespace Cert.KernelIdeal.Payload

open Cert.KernelIdeal Cert.KernelIdeal.Gen
open Idealize.ShloMosaic Idealize.ShloMosaic.ValueIdx

/-! ## Where the two products' dimension numbers send an output entry and a contracted coordinate -/

theorem d1_l0 (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem d1_l1 (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
theorem d1_r0 (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem d1_r1 (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

theorem d2_l0 (i : S256x1024.Idx) (q : dot_S256x4096_S1024x4096_S256x1024_1_1_0_0_n_n.contr.Idx) : (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem d2_l1 (i : S256x1024.Idx) (q : dot_S256x4096_S1024x4096_S256x1024_1_1_0_0_n_n.contr.Idx) : (dot_S256x4096_S1024x4096_S256x1024_1_1_0_0_n_n.lhsIdx i q 1).val = (q ⟨0, by decide⟩).val :=
  dot_S256x4096_S1024x4096_S256x1024_1_1_0_0_n_n.lhsIdx_val_of_single rfl i q
theorem d2_r0 (i : S256x1024.Idx) (q : dot_S256x4096_S1024x4096_S256x1024_1_1_0_0_n_n.contr.Idx) : (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem d2_r1 (i : S256x1024.Idx) (q : dot_S256x4096_S1024x4096_S256x1024_1_1_0_0_n_n.contr.Idx) : (dot_S256x4096_S1024x4096_S256x1024_1_1_0_0_n_n.rhsIdx i q 1).val = (q ⟨0, by decide⟩).val :=
  dot_S256x4096_S1024x4096_S256x1024_1_1_0_0_n_n.rhsIdx_val_of_single rfl i q

/-! ## The payload at an entry -/

/-- Entry `(p, q)` of what the body stores, from the three blocks it loads. -/
theorem pay_at (x0 : Vec Ideal S256x1024 .f32) (x1 : Vec Ideal S1x4096x1024 .bf16) (x2 : Vec Ideal S1x1024x4096 .bf16)
    (p : Fin 256) (q : Fin 1024) :
    k0_pay1 (F := Ideal) x0 x1 x2 (ix2 p q)
      = ∑ f : Fin 4096, max (∑ k : Fin 1024, x0 (ix2 p k) * x1 (ix3 (0 : Fin 1) f k)) (Ideal.ofBits .f32 0x00000000#32)
          * x2 (ix3 (0 : Fin 1) q f) := by
  unfold k0_pay1
  refine (Cert.LibDotRows.matmul_zero_at dot_S256x4096_S1024x4096_S256x1024_1_1_0_0_n_n none rfl rfl d2_l0 d2_l1 d2_r0 d2_r1 _ _ p q).trans ?_
  refine Finset.sum_congr rfl fun f _ => ?_
  refine congrArg₂ (· * ·) ?_ ?_
  · -- the positive part of the first product, the rounding an identity
    show max (FloatOps.matmul (F := Ideal) dot_S256x1024_S4096x1024_S256x4096_1_1_0_0_n_n none _ _ (constant (F := Ideal) S256x4096 .f32 0x00000000#32) (ix2 p f)) _ = _
    refine congrArg₂ max ?_ rfl
    refine (Cert.LibDotRows.matmul_zero_at dot_S256x1024_S4096x1024_S256x4096_1_1_0_0_n_n none rfl rfl d1_l0 d1_l1 d1_r0 d1_r1 _ _ p f).trans ?_
    refine Finset.sum_congr rfl fun k _ => ?_
    refine congrArg₂ (· * ·) rfl ?_
    exact shapeCast_1ab_ab_apply x1 _ f k
  · exact shapeCast_1ab_ab_apply x2 _ q f

end Cert.KernelIdeal.Payload

end
-- ==== Proof.Blocks.lean ====
/-
  From the kernel's blocks to its result array, over the extended reals.

  The grid has 64 points.  At point `t` the body is handed rows `256 t … 256 t + 255` of `x` and the two matrices of
  tile `t`'s expert (the host has rounded both weight arrays to half width beforehand: an identity over the extended
  reals), and stores one 256 × 1024 block, which the pipeline writes back as rows `256 t … 256 t + 255` of the result.
  That block is the specification `G` on those rows, because a row of tile `t` is owned by tile `t`'s expert.
  Consecutive points write different tiles, so every point writes back, and the 64 tiles are all of the 16384 rows: the
  result array ends as `G` of the three argument arrays.
-/
import proofs.«139479_j69965017252291_2_alg».proof.Proof.Gen.KernelIdeal.Frame
import proofs.«139479_j69965017252291_2_alg».proof.Proof.TablesIdeal
import proofs.«139479_j69965017252291_2_alg».proof.Proof.Payload
import proofs.«139479_j69965017252291_2_alg».proof.Proof.Spec
import Idealize.ShloMosaic.Lib.Pipeline.Value
import Idealize.ShloMosaic.Lib.StableHlo.Run

set_option maxRecDepth 16384

noncomputable section

open scoped BigOperators

namespace Cert.KernelIdeal.Blocks

open Cert.KernelIdeal Cert.KernelIdeal.Gen Cert.KernelIdeal.Tables Cert.KernelIdeal.Payload Cert.Spec
open Idealize.ShloMosaic Idealize.ShloMosaic.TcCoe Idealize.SL.Sem Idealize.ShloMosaic.ValueIdx Idealize.ShloMosaic.StableHlo
open Idealize.ShloMosaic.Pipeline (Dat)

/-! ## What the body leaves: its one store's payload of the blocks it loads (at any float instance) -/

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq {F : FTy → Type} [FloatOps F] (c : Dev nD) (i : grid0.Coords) (arg3 : Memref sig .tc .vmem S256x1024 .f32) (harg3 : arg3.IsWhole) (arg4 : Memref sig .tc .vmem S1x4096x1024 .bf16) (harg4 : arg4.IsWhole) (arg5 : Memref sig .tc .vmem S1x1024x4096 .bf16) (harg5 : arg5.IsWhole) (arg6 : Memref sig .tc .vmem S256x1024 .f32) (harg6 : arg6.IsWhole)
    (x0 : Vec F S256x1024 .f32) (x1 : Vec F S1x4096x1024 .bf16) (x2 : Vec F S1x1024x4096 .bf16) (xt0 : TbBuf0 (F := F) c tbM0_0) (xt1 : TbBuf0 (F := F) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  rw [View.canon_unit_zero hz2]
  simp only [View.readAt_eq_ld, Memref.IsWhole.read_unread, View.ld_unit_zero (S := S256x1024) hz2,
    View.ld_unit_zero (S := S1x4096x1024) hz3, View.ld_unit_zero (S := S1x1024x4096) hz3]

/-! ## One block is the specification on its rows -/

/-- If the three loaded blocks are rows `256 t …` of `x` and the matrices of tile `t`'s expert, the stored block is
    `G` on rows `256 t …`. -/
theorem block_eq (x : (⟨2, ![16384, 1024]⟩ : Shape).Idx → EReal) (wi : (⟨3, ![8, 4096, 1024]⟩ : Shape).Idx → EReal)
    (wo : (⟨3, ![8, 1024, 4096]⟩ : Shape).Idx → EReal) (t : Nat) (ht : t < 64)
    (b0 : Vec Ideal S256x1024 .f32) (b1 : Vec Ideal S1x4096x1024 .bf16) (b2 : Vec Ideal S1x1024x4096 .bf16)
    (h0 : ∀ (p : Fin 256) (k : Fin 1024), b0 (ix2 p k) = x (ix2 (⟨t * 256 + p.val, by omega⟩ : Fin 16384) k))
    (h1 : ∀ (f : Fin 4096) (k : Fin 1024), b1 (ix3 (0 : Fin 1) f k) = wi (ix3 (⟨expertOfTile t, expertOfTile_lt t⟩ : Fin 8) f k))
    (h2 : ∀ (q : Fin 1024) (f : Fin 4096), b2 (ix3 (0 : Fin 1) q f) = wo (ix3 (⟨expertOfTile t, expertOfTile_lt t⟩ : Fin 8) q f))
    (p : Fin 256) (q : Fin 1024) :
    k0_pay1 (F := Ideal) b0 b1 b2 (ix2 p q) = G x wi wo (ix2 (⟨t * 256 + p.val, by omega⟩ : Fin 16384) q) := by
  rw [pay_at, G_at x wi wo _ q ⟨expertOfTile t, expertOfTile_lt t⟩ (expertOfRow_tile t p.val p.isLt (by omega))]
  refine Finset.sum_congr rfl fun f _ => ?_
  rw [h2 q f]
  refine congrArg₂ (· * ·) (congrArg₂ max ?_ rfl) rfl
  refine Finset.sum_congr rfl fun k _ => ?_
  rw [h0 p k, h1 f k]

/-! ## The schedule at a symbolic point -/

variable (m : (ℓ : Loc nD τ sig) → Buf (Elt Ideal) ℓ) (ρ : Dev nD → PrngReg)

/-- The grid has one axis: the coordinate of point `t` is `t`. -/
theorem coords0 : ∀ t : Fin grid0.N, ((grid0.coords t) 0).val = t.val := by decide

theorem N_lt (hO : Ok m) (t : Fin (cfgM m hO).N) : t.val < 64 := t.isLt

/-- The windows' block indices at point `t`: tile `t` of the rows, the slab of tile `t`'s expert of the weights. -/
theorem index0 (hO : Ok m) (t : Fin (cfgM m hO).N) : ((cfgM m hO).win 0).index t = ![t.val, 0] :=
  (transform_0 m (grid0.coords t)).trans (by rw [coords0 t])
theorem index1 (hO : Ok m) (t : Fin (cfgM m hO).N) : ((cfgM m hO).win 1).index t = ![expertOfTile t.val, 0, 0] :=
  (transform_1 m (grid0.coords t)).trans (by rw [coords0 t])
theorem index2 (hO : Ok m) (t : Fin (cfgM m hO).N) : ((cfgM m hO).win 2).index t = ![expertOfTile t.val, 0, 0] :=
  (transform_2 m (grid0.coords t)).trans (by rw [coords0 t])
theorem index3 (hO : Ok m) (t : Fin (cfgM m hO).N) : ((cfgM m hO).win 3).index t = ![t.val, 0] :=
  (transform_3 m (grid0.coords t)).trans (by rw [coords0 t])

/-- The host rounds the two weight arrays to half width before the region: over the extended reals, no change. -/
theorem V_wi (c : Dev nD) : (V m c main_v0 : S8x4096x1024.Idx → EReal) = m ((c : Thread nD τ).loc main_arg1) := by
  have e : (V m c main_v0 : S8x4096x1024.Idx → EReal) = truncf (F := Ideal) (s := S8x4096x1024) (φ := .f32) .bf16 (m ((c : Thread nD τ).loc main_arg1)) bitsLt_bf16_f32 := by
    dsimp only [V, hostOps0]; after_results
  rw [e]; rfl
theorem V_wo (c : Dev nD) : (V m c main_v1 : S8x1024x4096.Idx → EReal) = m ((c : Thread nD τ).loc main_arg2) := by
  have e : (V m c main_v1 : S8x1024x4096.Idx → EReal) = truncf (F := Ideal) (s := S8x1024x4096) (φ := .f32) .bf16 (m ((c : Thread nD τ).loc main_arg2)) bitsLt_bf16_f32 := by
    dsimp only [V, hostOps0]; after_results
  rw [e]; rfl

/-- The three input blocks at point `t`, entry by entry. -/
theorem iblk0_at (hO : Ok m) (c : Dev nD) (t : Fin (cfgM m hO).N) (p : Fin 256) (k : Fin 1024) :
    iblk m hO c 0 t (ix2 p k) = m ((c : Thread nD τ).loc main_arg0) (ix2 (⟨t.val * 256 + p.val, by have := N_lt m hO t; omega⟩ : Fin 16384) k) := by
  show V m c main_arg0 ((((cfgM m hO).win 0).blk t).view.emb (ix2 p k)) = _
  rw [V_main_arg0]
  refine congrArg _ ?_
  funext a; apply Fin.ext
  match a with
  | ⟨0, _⟩ => show ((cfgM m hO).win 0).index t (0 : Fin 2) * 256 + 1 * p.val = t.val * 256 + p.val; rw [index0]; show t.val * 256 + 1 * p.val = _; omega
  | ⟨1, _⟩ => show ((cfgM m hO).win 0).index t (1 : Fin 2) * 1024 + 1 * k.val = k.val; rw [index0]; show 0 * 1024 + 1 * k.val = _; omega

theorem iblk1_at (hO : Ok m) (c : Dev nD) (t : Fin (cfgM m hO).N) (f : Fin 4096) (k : Fin 1024) :
    iblk m hO c 1 t (ix3 (0 : Fin 1) f k) = m ((c : Thread nD τ).loc main_arg1) (ix3 (⟨expertOfTile t.val, expertOfTile_lt _⟩ : Fin 8) f k) := by
  show V m c main_v0 ((((cfgM m hO).win 1).blk t).view.emb (ix3 (0 : Fin 1) f k)) = _
  rw [V_wi]
  refine congrArg _ ?_
  funext a; apply Fin.ext
  match a with
  | ⟨0, _⟩ => show ((cfgM m hO).win 1).index t (0 : Fin 3) * 1 + 1 * 0 = expertOfTile t.val; rw [index1]; show expertOfTile t.val * 1 + 1 * 0 = _; omega
  | ⟨1, _⟩ => show ((cfgM m hO).win 1).index t (1 : Fin 3) * 4096 + 1 * f.val = f.val; rw [index1]; show 0 * 4096 + 1 * f.val = _; omega
  | ⟨2, _⟩ => show ((cfgM m hO).win 1).index t (2 : Fin 3) * 1024 + 1 * k.val = k.val; rw [index1]; show 0 * 1024 + 1 * k.val = _; omega

theorem iblk2_at (hO : Ok m) (c : Dev nD) (t : Fin (cfgM m hO).N) (q : Fin 1024) (f : Fin 4096) :
    iblk m hO c 2 t (ix3 (0 : Fin 1) q f) = m ((c : Thread nD τ).loc main_arg2) (ix3 (⟨expertOfTile t.val, expertOfTile_lt _⟩ : Fin 8) q f) := by
  show V m c main_v1 ((((cfgM m hO).win 2).blk t).view.emb (ix3 (0 : Fin 1) q f)) = _
  rw [V_wo]
  refine congrArg _ ?_
  funext a; apply Fin.ext
  match a with
  | ⟨0, _⟩ => show ((cfgM m hO).win 2).index t (0 : Fin 3) * 1 + 1 * 0 = expertOfTile t.val; rw [index2]; show expertOfTile t.val * 1 + 1 * 0 = _; omega
  | ⟨1, _⟩ => show ((cfgM m hO).win 2).index t (1 : Fin 3) * 1024 + 1 * q.val = q.val; rw [index2]; show 0 * 1024 + 1 * q.val = _; omega
  | ⟨2, _⟩ => show ((cfgM m hO).win 2).index t (2 : Fin 3) * 4096 + 1 * f.val = f.val; rw [index2]; show 0 * 4096 + 1 * f.val = _; omega

/-! ## What point `t` writes back, and the whole array -/

/-- The three argument arrays on core `c`. -/
abbrev argX (c : Dev nD) : S16384x1024.Idx → EReal := m ((c : Thread nD τ).loc main_arg0)
abbrev argWi (c : Dev nD) : S8x4096x1024.Idx → EReal := m ((c : Thread nD τ).loc main_arg1)
abbrev argWo (c : Dev nD) : S8x1024x4096.Idx → EReal := m ((c : Thread nD τ).loc main_arg2)

/-- WHAT POINT `t` WRITES BACK is block `t` of the specification of the argument arrays. -/
theorem flushed_eq (hO : Ok m) (c : Dev nD) (t : Fin (cfgM m hO).N) :
    (dats m hO 0 c).flushed 3 t = (((cfgM m hO).win 3).blk t).view.read (Elt Ideal) (G (argX m c) (argWi m c) (argWo m c)) := by
  show ((cfgM m hO).win 3).cut (grid0.coords t) ((dats m hO 0 c).after 3 t) = _
  rw [after0_3]
  unfold outsAt0
  have hout := out_eq (F := Ideal) c (grid0.coords t) (ms0_0 m hO t) (hs0_0 m hO t) (ms0_1 m hO t) (hs0_1 m hO t)
    (ms0_2 m hO t) (hs0_2 m hO t) (ms0_3 m hO t) (hs0_3 m hO t) (iblk m hO c 0 t) (iblk m hO c 1 t) (iblk m hO c 2 t) (tbl m 0) (tbl m 1)
  refine funext fun (y : S256x1024.Idx) => ?_
  obtain ⟨p, q, rfl⟩ : ∃ (p : Fin 256) (q : Fin 1024), y = ix2 p q := ⟨y 0, y 1, eq_ix2 y⟩
  refine (congrFun hout (ix2 p q)).trans ?_
  refine (block_eq (argX m c) (argWi m c) (argWo m c) t.val (N_lt m hO t) (iblk m hO c 0 t) (iblk m hO c 1 t) (iblk m hO c 2 t)
    (iblk0_at m hO c t) (iblk1_at m hO c t) (iblk2_at m hO c t) p q).trans ?_
  show G _ _ _ _ = G _ _ _ ((((cfgM m hO).win 3).blk t).view.emb (ix2 p q))
  refine congrArg _ ?_
  funext a; apply Fin.ext
  match a with
  | ⟨0, _⟩ => show t.val * 256 + p.val = ((cfgM m hO).win 3).index t (0 : Fin 2) * 256 + 1 * p.val; rw [index3]; show _ = t.val * 256 + 1 * p.val; omega
  | ⟨1, _⟩ => show q.val = ((cfgM m hO).win 3).index t (1 : Fin 2) * 1024 + 1 * q.val; rw [index3]; show _ = 0 * 1024 + 1 * q.val; omega

/-- Consecutive points write different tiles, so every point writes its block back. -/
theorem flush3 (hO : Ok m) (t : Fin (cfgM m hO).N) : ((cfgM m hO).win 3).flush t = true := by
  unfold Pipeline.Window.flush
  simp only [Bool.and_eq_true, Bool.or_eq_true, decide_eq_true_eq]
  refine ⟨rfl, ?_⟩
  have ht := N_lt m hO t
  by_cases h : t.val + 1 = 64
  · exact Or.inl h
  · refine Or.inr ⟨(by omega : t.val + 1 < 64), ?_⟩
    rw [index3, index3]
    intro e
    have := congrFun e (0 : Fin 2)
    simp at this

/-- The 64 tiles are all the rows: row `r` is in the block of point `r / 256`. -/
theorem cover (hO : Ok m) (i : S16384x1024.Idx) :
    ∃ t : Fin (cfgM m hO).N, ((cfgM m hO).win 3).flush t = true ∧ i ∈ (((cfgM m hO).win 3).blk t).view.set := by
  have h0 : (i 0).val < 16384 := (i 0).isLt
  have h1 : (i 1).val < 1024 := (i 1).isLt
  let t : Fin (cfgM m hO).N := ⟨(i 0).val / 256, by show (i 0).val / 256 < 64; omega⟩
  refine ⟨t, flush3 m hO t, ?_⟩
  have e : (((cfgM m hO).win 3).blk t).view.set = (((cfgM m hO).win 3).rect t).set := View.set_slice_whole main_v2 _
  refine (congrArg (fun s => i ∈ s) e).mpr (Rect.mem_set_unit.mpr fun a => ?_)
  match a with
  | ⟨0, _⟩ =>
    show ((cfgM m hO).win 3).index t (0 : Fin 2) * 256 ≤ (i 0).val ∧ (i 0).val < ((cfgM m hO).win 3).index t (0 : Fin 2) * 256 + 256
    rw [index3]
    show (i 0).val / 256 * 256 ≤ (i 0).val ∧ (i 0).val < (i 0).val / 256 * 256 + 256
    omega
  | ⟨1, _⟩ =>
    show ((cfgM m hO).win 3).index t (1 : Fin 2) * 1024 ≤ (i 1).val ∧ (i 1).val < ((cfgM m hO).win 3).index t (1 : Fin 2) * 1024 + 1024
    rw [index3]
    show 0 * 1024 ≤ (i 1).val ∧ (i 1).val < 0 * 1024 + 1024
    omega

/-- THE RESULT ARRAY after the run is the specification of the argument arrays. -/
theorem final (hO : Ok m) (c : Dev nD) : (dats m hO 0 c).arrAt 3 (cfgM m hO).N = G (argX m c) (argWi m c) (argWo m c) :=
  (dats m hO 0 c).arrAt_eq_of_cover 3 (G (argX m c) (argWi m c) (argWo m c)) (fun t _ => flushed_eq m hO c t) (cover m hO)

/-- THE KERNEL'S RUN with its result named: every weakly fair execution ends with the result array at the
    specification and the three argument arrays as they were. -/
theorem run : θ_run defs (onTc (τ := τ) (main (F := Ideal))) ⟨m, fun _ => 0, ρ⟩ fun r => ∀ c : Dev nD,
      r.2.mem ((c : Thread nD τ).loc main_v2) = G (argX m c) (argWi m c) (argWo m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have hO : Ok m := Tables.ok m
  refine (θ_run defs _ _).mono (fun _ h c => ?_) (run_main m ρ hO)
  exact ⟨((h c).1 3).trans (final m hO c),
    ((h c).1 0).trans (((dats m hO 0 c).arrAt_in 0 rfl _).trans ((A_eq m hO c 0).trans (V_main_arg0 m c))),
    ((h c).2 main_arg1 (by decide : main_arg1 ∈ Pipeline.restRefs sig spec0)).trans (V_main_arg1 m c),
    ((h c).2 main_arg2 (by decide : main_arg2 ∈ Pipeline.restRefs sig spec0)).trans (V_main_arg2 m c)⟩

end Cert.KernelIdeal.Blocks

end
-- ==== Proof.RefValue.lean ====
/-
  The reference, read entry by entry over the extended reals.

  The reference cuts the rows of `x` into the eight runs the experts own (rows 0, 3072, 4096, 6656, 8192, 10240, 12288,
  14848 onward), takes expert `e`'s two matrices out of the stacked weights, forms `max (xs · wi[e]ᵀ, 0) · wo[e]ᵀ` for each
  run, and lays the eight results end to end.  An entry of the concatenation is an entry of the piece its row falls
  in; that piece's entry is the two sums of products with the positive part in between, on the row's own expert; and
  the expert of a row in run `e` is `e`.  So the reference's result is the specification `G`.
-/
import proofs.«139479_j69965017252291_2_alg».proof.Proof.Gen.ReferenceIdeal.Read
import proofs.«139479_j69965017252291_2_alg».proof.Proof.Spec
import Idealize.ShloMosaic.Lib.Pipeline.Value
import Idealize.ShloMosaic.Lib.ValueIdx

set_option maxRecDepth 131072

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-- Expert 0's piece (rows 0 … 3071 of the result): row `r` of the piece is row `p = 0 + r` of `x` through
    `wi[0]`, the positive part, and `wo[0]`. -/
theorem piece_0 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (r : Fin 3072) (d : Fin 1024) (hpr : r.val = p.val) :
    val_main_v7 (F := Ideal) x0 x1 x2 (ix2 r d)
      = ∑ f : Fin 4096, max (∑ k : Fin 1024, x0 (ix2 p k) * x1 (ix3 (0 : Fin 8) f k)) (Ideal.ofBits .f32 0x00000000#32)
          * x2 (ix3 (0 : Fin 8) d f) := by
  rw [val_main_v7_apply]
  refine Finset.sum_congr rfl fun f _ => ?_
  rw [val_main_v4_apply, val_main_v3_apply, val_main_call0_v0_apply, val_main_call0_cst_apply, val_main_v6_apply, val_main_v5_apply]
  refine congrArg₂ (· * ·) (congrArg₂ max (Finset.sum_congr rfl fun k _ => ?_) rfl) (congrArg x2 ?_)
  · rw [val_main_v0_apply, val_main_v2_apply, val_main_v1_apply]
    refine congrArg₂ (· * ·) (congrArg x0 ?_) (congrArg x1 ?_)
    · funext a; apply Fin.ext
      match a with
      | ⟨0, _⟩ => exact hpr
      | ⟨1, _⟩ => rfl
    · funext a; apply Fin.ext
      have hf := f.isLt; have hk := k.isLt
      match a with
      | ⟨0, _⟩ => rfl
      | ⟨1, _⟩ => show (f.val * 1024 + k.val) / 1024 % 4096 = f.val; omega
      | ⟨2, _⟩ => show (f.val * 1024 + k.val) % 1024 = k.val; omega
  · funext a; apply Fin.ext
    have hf := f.isLt; have hd := d.isLt
    match a with
    | ⟨0, _⟩ => rfl
    | ⟨1, _⟩ => show (d.val * 4096 + f.val) / 4096 % 1024 = d.val; omega
    | ⟨2, _⟩ => show (d.val * 4096 + f.val) % 4096 = f.val; omega

/-- On expert 0's rows the reference's result is the specification. -/
theorem row_0 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (d : Fin 1024) (hlo : 0 ≤ p.val) (hhi : p.val < 3072) :
    val_main_v64 (F := Ideal) x0 x1 x2 (ix2 p d) = G x0 x1 x2 (ix2 p d) := by
  have hcat : val_main_v64 (F := Ideal) x0 x1 x2 (ix2 p d)
      = val_main_v7 (F := Ideal) x0 x1 x2 (ix2 (⟨p.val - 0, by omega⟩ : Fin 3072) d) := by
    unfold val_main_v64
    refine concatenate_apply_piece (0 : Fin 2) _ _ (ix2 p d) 0 ?_ S3072x1024 (val_main_v7 (F := Ideal) x0 x1 x2) ?_ ?_ 0 ?_
      (ix2 (⟨p.val - 0, by omega⟩ : Fin 3072) d) ?_ ?_
    · exact (by decide : 0 < 8)
    · rfl
    · rfl
    · rfl
    · intro b hb
      match b with
      | ⟨0, _⟩ => exact absurd rfl hb
      | ⟨1, _⟩ => rfl
    · show 0 + (p.val - 0) = p.val; omega
  rw [hcat, piece_0 x0 x1 x2 p _ d (by show (p.val - 0) = p.val; omega),
    G_at x0 x1 x2 p d (0 : Fin 8) (by show expertOfTile (p.val / 256) = 0; unfold expertOfTile; split_ifs <;> omega)]

/-- Expert 1's piece (rows 3072 … 4095 of the result): row `r` of the piece is row `p = 3072 + r` of `x` through
    `wi[1]`, the positive part, and `wo[1]`. -/
theorem piece_1 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (r : Fin 1024) (d : Fin 1024) (hpr : 3072 + r.val = p.val) :
    val_main_v15 (F := Ideal) x0 x1 x2 (ix2 r d)
      = ∑ f : Fin 4096, max (∑ k : Fin 1024, x0 (ix2 p k) * x1 (ix3 (1 : Fin 8) f k)) (Ideal.ofBits .f32 0x00000000#32)
          * x2 (ix3 (1 : Fin 8) d f) := by
  rw [val_main_v15_apply]
  refine Finset.sum_congr rfl fun f _ => ?_
  rw [val_main_v12_apply, val_main_v11_apply, val_main_call1_v0_apply, val_main_call1_cst_apply, val_main_v14_apply, val_main_v13_apply]
  refine congrArg₂ (· * ·) (congrArg₂ max (Finset.sum_congr rfl fun k _ => ?_) rfl) (congrArg x2 ?_)
  · rw [val_main_v8_apply, val_main_v10_apply, val_main_v9_apply]
    refine congrArg₂ (· * ·) (congrArg x0 ?_) (congrArg x1 ?_)
    · funext a; apply Fin.ext
      match a with
      | ⟨0, _⟩ => exact hpr
      | ⟨1, _⟩ => rfl
    · funext a; apply Fin.ext
      have hf := f.isLt; have hk := k.isLt
      match a with
      | ⟨0, _⟩ => rfl
      | ⟨1, _⟩ => show (f.val * 1024 + k.val) / 1024 % 4096 = f.val; omega
      | ⟨2, _⟩ => show (f.val * 1024 + k.val) % 1024 = k.val; omega
  · funext a; apply Fin.ext
    have hf := f.isLt; have hd := d.isLt
    match a with
    | ⟨0, _⟩ => rfl
    | ⟨1, _⟩ => show (d.val * 4096 + f.val) / 4096 % 1024 = d.val; omega
    | ⟨2, _⟩ => show (d.val * 4096 + f.val) % 4096 = f.val; omega

/-- On expert 1's rows the reference's result is the specification. -/
theorem row_1 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (d : Fin 1024) (hlo : 3072 ≤ p.val) (hhi : p.val < 4096) :
    val_main_v64 (F := Ideal) x0 x1 x2 (ix2 p d) = G x0 x1 x2 (ix2 p d) := by
  have hcat : val_main_v64 (F := Ideal) x0 x1 x2 (ix2 p d)
      = val_main_v15 (F := Ideal) x0 x1 x2 (ix2 (⟨p.val - 3072, by omega⟩ : Fin 1024) d) := by
    unfold val_main_v64
    refine concatenate_apply_piece (0 : Fin 2) _ _ (ix2 p d) 1 ?_ S1024x1024 (val_main_v15 (F := Ideal) x0 x1 x2) ?_ ?_ 3072 ?_
      (ix2 (⟨p.val - 3072, by omega⟩ : Fin 1024) d) ?_ ?_
    · exact (by decide : 1 < 8)
    · rfl
    · rfl
    · rfl
    · intro b hb
      match b with
      | ⟨0, _⟩ => exact absurd rfl hb
      | ⟨1, _⟩ => rfl
    · show 3072 + (p.val - 3072) = p.val; omega
  rw [hcat, piece_1 x0 x1 x2 p _ d (by show 3072 + (p.val - 3072) = p.val; omega),
    G_at x0 x1 x2 p d (1 : Fin 8) (by show expertOfTile (p.val / 256) = 1; unfold expertOfTile; split_ifs <;> omega)]

/-- Expert 2's piece (rows 4096 … 6655 of the result): row `r` of the piece is row `p = 4096 + r` of `x` through
    `wi[2]`, the positive part, and `wo[2]`. -/
theorem piece_2 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (r : Fin 2560) (d : Fin 1024) (hpr : 4096 + r.val = p.val) :
    val_main_v23 (F := Ideal) x0 x1 x2 (ix2 r d)
      = ∑ f : Fin 4096, max (∑ k : Fin 1024, x0 (ix2 p k) * x1 (ix3 (2 : Fin 8) f k)) (Ideal.ofBits .f32 0x00000000#32)
          * x2 (ix3 (2 : Fin 8) d f) := by
  rw [val_main_v23_apply]
  refine Finset.sum_congr rfl fun f _ => ?_
  rw [val_main_v20_apply, val_main_v19_apply, val_main_call2_v0_apply, val_main_call2_cst_apply, val_main_v22_apply, val_main_v21_apply]
  refine congrArg₂ (· * ·) (congrArg₂ max (Finset.sum_congr rfl fun k _ => ?_) rfl) (congrArg x2 ?_)
  · rw [val_main_v16_apply, val_main_v18_apply, val_main_v17_apply]
    refine congrArg₂ (· * ·) (congrArg x0 ?_) (congrArg x1 ?_)
    · funext a; apply Fin.ext
      match a with
      | ⟨0, _⟩ => exact hpr
      | ⟨1, _⟩ => rfl
    · funext a; apply Fin.ext
      have hf := f.isLt; have hk := k.isLt
      match a with
      | ⟨0, _⟩ => rfl
      | ⟨1, _⟩ => show (f.val * 1024 + k.val) / 1024 % 4096 = f.val; omega
      | ⟨2, _⟩ => show (f.val * 1024 + k.val) % 1024 = k.val; omega
  · funext a; apply Fin.ext
    have hf := f.isLt; have hd := d.isLt
    match a with
    | ⟨0, _⟩ => rfl
    | ⟨1, _⟩ => show (d.val * 4096 + f.val) / 4096 % 1024 = d.val; omega
    | ⟨2, _⟩ => show (d.val * 4096 + f.val) % 4096 = f.val; omega

/-- On expert 2's rows the reference's result is the specification. -/
theorem row_2 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (d : Fin 1024) (hlo : 4096 ≤ p.val) (hhi : p.val < 6656) :
    val_main_v64 (F := Ideal) x0 x1 x2 (ix2 p d) = G x0 x1 x2 (ix2 p d) := by
  have hcat : val_main_v64 (F := Ideal) x0 x1 x2 (ix2 p d)
      = val_main_v23 (F := Ideal) x0 x1 x2 (ix2 (⟨p.val - 4096, by omega⟩ : Fin 2560) d) := by
    unfold val_main_v64
    refine concatenate_apply_piece (0 : Fin 2) _ _ (ix2 p d) 2 ?_ S2560x1024 (val_main_v23 (F := Ideal) x0 x1 x2) ?_ ?_ 4096 ?_
      (ix2 (⟨p.val - 4096, by omega⟩ : Fin 2560) d) ?_ ?_
    · exact (by decide : 2 < 8)
    · rfl
    · rfl
    · rfl
    · intro b hb
      match b with
      | ⟨0, _⟩ => exact absurd rfl hb
      | ⟨1, _⟩ => rfl
    · show 4096 + (p.val - 4096) = p.val; omega
  rw [hcat, piece_2 x0 x1 x2 p _ d (by show 4096 + (p.val - 4096) = p.val; omega),
    G_at x0 x1 x2 p d (2 : Fin 8) (by show expertOfTile (p.val / 256) = 2; unfold expertOfTile; split_ifs <;> omega)]

/-- Expert 3's piece (rows 6656 … 8191 of the result): row `r` of the piece is row `p = 6656 + r` of `x` through
    `wi[3]`, the positive part, and `wo[3]`. -/
theorem piece_3 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (r : Fin 1536) (d : Fin 1024) (hpr : 6656 + r.val = p.val) :
    val_main_v31 (F := Ideal) x0 x1 x2 (ix2 r d)
      = ∑ f : Fin 4096, max (∑ k : Fin 1024, x0 (ix2 p k) * x1 (ix3 (3 : Fin 8) f k)) (Ideal.ofBits .f32 0x00000000#32)
          * x2 (ix3 (3 : Fin 8) d f) := by
  rw [val_main_v31_apply]
  refine Finset.sum_congr rfl fun f _ => ?_
  rw [val_main_v28_apply, val_main_v27_apply, val_main_call3_v0_apply, val_main_call3_cst_apply, val_main_v30_apply, val_main_v29_apply]
  refine congrArg₂ (· * ·) (congrArg₂ max (Finset.sum_congr rfl fun k _ => ?_) rfl) (congrArg x2 ?_)
  · rw [val_main_v24_apply, val_main_v26_apply, val_main_v25_apply]
    refine congrArg₂ (· * ·) (congrArg x0 ?_) (congrArg x1 ?_)
    · funext a; apply Fin.ext
      match a with
      | ⟨0, _⟩ => exact hpr
      | ⟨1, _⟩ => rfl
    · funext a; apply Fin.ext
      have hf := f.isLt; have hk := k.isLt
      match a with
      | ⟨0, _⟩ => rfl
      | ⟨1, _⟩ => show (f.val * 1024 + k.val) / 1024 % 4096 = f.val; omega
      | ⟨2, _⟩ => show (f.val * 1024 + k.val) % 1024 = k.val; omega
  · funext a; apply Fin.ext
    have hf := f.isLt; have hd := d.isLt
    match a with
    | ⟨0, _⟩ => rfl
    | ⟨1, _⟩ => show (d.val * 4096 + f.val) / 4096 % 1024 = d.val; omega
    | ⟨2, _⟩ => show (d.val * 4096 + f.val) % 4096 = f.val; omega

/-- On expert 3's rows the reference's result is the specification. -/
theorem row_3 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (d : Fin 1024) (hlo : 6656 ≤ p.val) (hhi : p.val < 8192) :
    val_main_v64 (F := Ideal) x0 x1 x2 (ix2 p d) = G x0 x1 x2 (ix2 p d) := by
  have hcat : val_main_v64 (F := Ideal) x0 x1 x2 (ix2 p d)
      = val_main_v31 (F := Ideal) x0 x1 x2 (ix2 (⟨p.val - 6656, by omega⟩ : Fin 1536) d) := by
    unfold val_main_v64
    refine concatenate_apply_piece (0 : Fin 2) _ _ (ix2 p d) 3 ?_ S1536x1024 (val_main_v31 (F := Ideal) x0 x1 x2) ?_ ?_ 6656 ?_
      (ix2 (⟨p.val - 6656, by omega⟩ : Fin 1536) d) ?_ ?_
    · exact (by decide : 3 < 8)
    · rfl
    · rfl
    · rfl
    · intro b hb
      match b with
      | ⟨0, _⟩ => exact absurd rfl hb
      | ⟨1, _⟩ => rfl
    · show 6656 + (p.val - 6656) = p.val; omega
  rw [hcat, piece_3 x0 x1 x2 p _ d (by show 6656 + (p.val - 6656) = p.val; omega),
    G_at x0 x1 x2 p d (3 : Fin 8) (by show expertOfTile (p.val / 256) = 3; unfold expertOfTile; split_ifs <;> omega)]

/-- Expert 4's piece (rows 8192 … 10239 of the result): row `r` of the piece is row `p = 8192 + r` of `x` through
    `wi[4]`, the positive part, and `wo[4]`. -/
theorem piece_4 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (r : Fin 2048) (d : Fin 1024) (hpr : 8192 + r.val = p.val) :
    val_main_v39 (F := Ideal) x0 x1 x2 (ix2 r d)
      = ∑ f : Fin 4096, max (∑ k : Fin 1024, x0 (ix2 p k) * x1 (ix3 (4 : Fin 8) f k)) (Ideal.ofBits .f32 0x00000000#32)
          * x2 (ix3 (4 : Fin 8) d f) := by
  rw [val_main_v39_apply]
  refine Finset.sum_congr rfl fun f _ => ?_
  rw [val_main_v36_apply, val_main_v35_apply, val_main_call4_v0_apply, val_main_call4_cst_apply, val_main_v38_apply, val_main_v37_apply]
  refine congrArg₂ (· * ·) (congrArg₂ max (Finset.sum_congr rfl fun k _ => ?_) rfl) (congrArg x2 ?_)
  · rw [val_main_v32_apply, val_main_v34_apply, val_main_v33_apply]
    refine congrArg₂ (· * ·) (congrArg x0 ?_) (congrArg x1 ?_)
    · funext a; apply Fin.ext
      match a with
      | ⟨0, _⟩ => exact hpr
      | ⟨1, _⟩ => rfl
    · funext a; apply Fin.ext
      have hf := f.isLt; have hk := k.isLt
      match a with
      | ⟨0, _⟩ => rfl
      | ⟨1, _⟩ => show (f.val * 1024 + k.val) / 1024 % 4096 = f.val; omega
      | ⟨2, _⟩ => show (f.val * 1024 + k.val) % 1024 = k.val; omega
  · funext a; apply Fin.ext
    have hf := f.isLt; have hd := d.isLt
    match a with
    | ⟨0, _⟩ => rfl
    | ⟨1, _⟩ => show (d.val * 4096 + f.val) / 4096 % 1024 = d.val; omega
    | ⟨2, _⟩ => show (d.val * 4096 + f.val) % 4096 = f.val; omega

/-- On expert 4's rows the reference's result is the specification. -/
theorem row_4 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (d : Fin 1024) (hlo : 8192 ≤ p.val) (hhi : p.val < 10240) :
    val_main_v64 (F := Ideal) x0 x1 x2 (ix2 p d) = G x0 x1 x2 (ix2 p d) := by
  have hcat : val_main_v64 (F := Ideal) x0 x1 x2 (ix2 p d)
      = val_main_v39 (F := Ideal) x0 x1 x2 (ix2 (⟨p.val - 8192, by omega⟩ : Fin 2048) d) := by
    unfold val_main_v64
    refine concatenate_apply_piece (0 : Fin 2) _ _ (ix2 p d) 4 ?_ S2048x1024 (val_main_v39 (F := Ideal) x0 x1 x2) ?_ ?_ 8192 ?_
      (ix2 (⟨p.val - 8192, by omega⟩ : Fin 2048) d) ?_ ?_
    · exact (by decide : 4 < 8)
    · rfl
    · rfl
    · rfl
    · intro b hb
      match b with
      | ⟨0, _⟩ => exact absurd rfl hb
      | ⟨1, _⟩ => rfl
    · show 8192 + (p.val - 8192) = p.val; omega
  rw [hcat, piece_4 x0 x1 x2 p _ d (by show 8192 + (p.val - 8192) = p.val; omega),
    G_at x0 x1 x2 p d (4 : Fin 8) (by show expertOfTile (p.val / 256) = 4; unfold expertOfTile; split_ifs <;> omega)]

/-- Expert 5's piece (rows 10240 … 12287 of the result): row `r` of the piece is row `p = 10240 + r` of `x` through
    `wi[5]`, the positive part, and `wo[5]`. -/
theorem piece_5 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (r : Fin 2048) (d : Fin 1024) (hpr : 10240 + r.val = p.val) :
    val_main_v47 (F := Ideal) x0 x1 x2 (ix2 r d)
      = ∑ f : Fin 4096, max (∑ k : Fin 1024, x0 (ix2 p k) * x1 (ix3 (5 : Fin 8) f k)) (Ideal.ofBits .f32 0x00000000#32)
          * x2 (ix3 (5 : Fin 8) d f) := by
  rw [val_main_v47_apply]
  refine Finset.sum_congr rfl fun f _ => ?_
  rw [val_main_v44_apply, val_main_v43_apply, val_main_call5_v0_apply, val_main_call5_cst_apply, val_main_v46_apply, val_main_v45_apply]
  refine congrArg₂ (· * ·) (congrArg₂ max (Finset.sum_congr rfl fun k _ => ?_) rfl) (congrArg x2 ?_)
  · rw [val_main_v40_apply, val_main_v42_apply, val_main_v41_apply]
    refine congrArg₂ (· * ·) (congrArg x0 ?_) (congrArg x1 ?_)
    · funext a; apply Fin.ext
      match a with
      | ⟨0, _⟩ => exact hpr
      | ⟨1, _⟩ => rfl
    · funext a; apply Fin.ext
      have hf := f.isLt; have hk := k.isLt
      match a with
      | ⟨0, _⟩ => rfl
      | ⟨1, _⟩ => show (f.val * 1024 + k.val) / 1024 % 4096 = f.val; omega
      | ⟨2, _⟩ => show (f.val * 1024 + k.val) % 1024 = k.val; omega
  · funext a; apply Fin.ext
    have hf := f.isLt; have hd := d.isLt
    match a with
    | ⟨0, _⟩ => rfl
    | ⟨1, _⟩ => show (d.val * 4096 + f.val) / 4096 % 1024 = d.val; omega
    | ⟨2, _⟩ => show (d.val * 4096 + f.val) % 4096 = f.val; omega

/-- On expert 5's rows the reference's result is the specification. -/
theorem row_5 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (d : Fin 1024) (hlo : 10240 ≤ p.val) (hhi : p.val < 12288) :
    val_main_v64 (F := Ideal) x0 x1 x2 (ix2 p d) = G x0 x1 x2 (ix2 p d) := by
  have hcat : val_main_v64 (F := Ideal) x0 x1 x2 (ix2 p d)
      = val_main_v47 (F := Ideal) x0 x1 x2 (ix2 (⟨p.val - 10240, by omega⟩ : Fin 2048) d) := by
    unfold val_main_v64
    refine concatenate_apply_piece (0 : Fin 2) _ _ (ix2 p d) 5 ?_ S2048x1024 (val_main_v47 (F := Ideal) x0 x1 x2) ?_ ?_ 10240 ?_
      (ix2 (⟨p.val - 10240, by omega⟩ : Fin 2048) d) ?_ ?_
    · exact (by decide : 5 < 8)
    · rfl
    · rfl
    · rfl
    · intro b hb
      match b with
      | ⟨0, _⟩ => exact absurd rfl hb
      | ⟨1, _⟩ => rfl
    · show 10240 + (p.val - 10240) = p.val; omega
  rw [hcat, piece_5 x0 x1 x2 p _ d (by show 10240 + (p.val - 10240) = p.val; omega),
    G_at x0 x1 x2 p d (5 : Fin 8) (by show expertOfTile (p.val / 256) = 5; unfold expertOfTile; split_ifs <;> omega)]

/-- Expert 6's piece (rows 12288 … 14847 of the result): row `r` of the piece is row `p = 12288 + r` of `x` through
    `wi[6]`, the positive part, and `wo[6]`. -/
theorem piece_6 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (r : Fin 2560) (d : Fin 1024) (hpr : 12288 + r.val = p.val) :
    val_main_v55 (F := Ideal) x0 x1 x2 (ix2 r d)
      = ∑ f : Fin 4096, max (∑ k : Fin 1024, x0 (ix2 p k) * x1 (ix3 (6 : Fin 8) f k)) (Ideal.ofBits .f32 0x00000000#32)
          * x2 (ix3 (6 : Fin 8) d f) := by
  rw [val_main_v55_apply]
  refine Finset.sum_congr rfl fun f _ => ?_
  rw [val_main_v52_apply, val_main_v51_apply, val_main_call6_v0_apply, val_main_call6_cst_apply, val_main_v54_apply, val_main_v53_apply]
  refine congrArg₂ (· * ·) (congrArg₂ max (Finset.sum_congr rfl fun k _ => ?_) rfl) (congrArg x2 ?_)
  · rw [val_main_v48_apply, val_main_v50_apply, val_main_v49_apply]
    refine congrArg₂ (· * ·) (congrArg x0 ?_) (congrArg x1 ?_)
    · funext a; apply Fin.ext
      match a with
      | ⟨0, _⟩ => exact hpr
      | ⟨1, _⟩ => rfl
    · funext a; apply Fin.ext
      have hf := f.isLt; have hk := k.isLt
      match a with
      | ⟨0, _⟩ => rfl
      | ⟨1, _⟩ => show (f.val * 1024 + k.val) / 1024 % 4096 = f.val; omega
      | ⟨2, _⟩ => show (f.val * 1024 + k.val) % 1024 = k.val; omega
  · funext a; apply Fin.ext
    have hf := f.isLt; have hd := d.isLt
    match a with
    | ⟨0, _⟩ => rfl
    | ⟨1, _⟩ => show (d.val * 4096 + f.val) / 4096 % 1024 = d.val; omega
    | ⟨2, _⟩ => show (d.val * 4096 + f.val) % 4096 = f.val; omega

/-- On expert 6's rows the reference's result is the specification. -/
theorem row_6 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (d : Fin 1024) (hlo : 12288 ≤ p.val) (hhi : p.val < 14848) :
    val_main_v64 (F := Ideal) x0 x1 x2 (ix2 p d) = G x0 x1 x2 (ix2 p d) := by
  have hcat : val_main_v64 (F := Ideal) x0 x1 x2 (ix2 p d)
      = val_main_v55 (F := Ideal) x0 x1 x2 (ix2 (⟨p.val - 12288, by omega⟩ : Fin 2560) d) := by
    unfold val_main_v64
    refine concatenate_apply_piece (0 : Fin 2) _ _ (ix2 p d) 6 ?_ S2560x1024 (val_main_v55 (F := Ideal) x0 x1 x2) ?_ ?_ 12288 ?_
      (ix2 (⟨p.val - 12288, by omega⟩ : Fin 2560) d) ?_ ?_
    · exact (by decide : 6 < 8)
    · rfl
    · rfl
    · rfl
    · intro b hb
      match b with
      | ⟨0, _⟩ => exact absurd rfl hb
      | ⟨1, _⟩ => rfl
    · show 12288 + (p.val - 12288) = p.val; omega
  rw [hcat, piece_6 x0 x1 x2 p _ d (by show 12288 + (p.val - 12288) = p.val; omega),
    G_at x0 x1 x2 p d (6 : Fin 8) (by show expertOfTile (p.val / 256) = 6; unfold expertOfTile; split_ifs <;> omega)]

/-- Expert 7's piece (rows 14848 … 16383 of the result): row `r` of the piece is row `p = 14848 + r` of `x` through
    `wi[7]`, the positive part, and `wo[7]`. -/
theorem piece_7 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (r : Fin 1536) (d : Fin 1024) (hpr : 14848 + r.val = p.val) :
    val_main_v63 (F := Ideal) x0 x1 x2 (ix2 r d)
      = ∑ f : Fin 4096, max (∑ k : Fin 1024, x0 (ix2 p k) * x1 (ix3 (7 : Fin 8) f k)) (Ideal.ofBits .f32 0x00000000#32)
          * x2 (ix3 (7 : Fin 8) d f) := by
  rw [val_main_v63_apply]
  refine Finset.sum_congr rfl fun f _ => ?_
  rw [val_main_v60_apply, val_main_v59_apply, val_main_call7_v0_apply, val_main_call7_cst_apply, val_main_v62_apply, val_main_v61_apply]
  refine congrArg₂ (· * ·) (congrArg₂ max (Finset.sum_congr rfl fun k _ => ?_) rfl) (congrArg x2 ?_)
  · rw [val_main_v56_apply, val_main_v58_apply, val_main_v57_apply]
    refine congrArg₂ (· * ·) (congrArg x0 ?_) (congrArg x1 ?_)
    · funext a; apply Fin.ext
      match a with
      | ⟨0, _⟩ => exact hpr
      | ⟨1, _⟩ => rfl
    · funext a; apply Fin.ext
      have hf := f.isLt; have hk := k.isLt
      match a with
      | ⟨0, _⟩ => rfl
      | ⟨1, _⟩ => show (f.val * 1024 + k.val) / 1024 % 4096 = f.val; omega
      | ⟨2, _⟩ => show (f.val * 1024 + k.val) % 1024 = k.val; omega
  · funext a; apply Fin.ext
    have hf := f.isLt; have hd := d.isLt
    match a with
    | ⟨0, _⟩ => rfl
    | ⟨1, _⟩ => show (d.val * 4096 + f.val) / 4096 % 1024 = d.val; omega
    | ⟨2, _⟩ => show (d.val * 4096 + f.val) % 4096 = f.val; omega

/-- On expert 7's rows the reference's result is the specification. -/
theorem row_7 (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal))
    (p : Fin 16384) (d : Fin 1024) (hlo : 14848 ≤ p.val) (hhi : p.val < 16384) :
    val_main_v64 (F := Ideal) x0 x1 x2 (ix2 p d) = G x0 x1 x2 (ix2 p d) := by
  have hcat : val_main_v64 (F := Ideal) x0 x1 x2 (ix2 p d)
      = val_main_v63 (F := Ideal) x0 x1 x2 (ix2 (⟨p.val - 14848, by omega⟩ : Fin 1536) d) := by
    unfold val_main_v64
    refine concatenate_apply_piece (0 : Fin 2) _ _ (ix2 p d) 7 ?_ S1536x1024 (val_main_v63 (F := Ideal) x0 x1 x2) ?_ ?_ 14848 ?_
      (ix2 (⟨p.val - 14848, by omega⟩ : Fin 1536) d) ?_ ?_
    · exact (by decide : 7 < 8)
    · rfl
    · rfl
    · rfl
    · intro b hb
      match b with
      | ⟨0, _⟩ => exact absurd rfl hb
      | ⟨1, _⟩ => rfl
    · show 14848 + (p.val - 14848) = p.val; omega
  rw [hcat, piece_7 x0 x1 x2 p _ d (by show 14848 + (p.val - 14848) = p.val; omega),
    G_at x0 x1 x2 p d (7 : Fin 8) (by show expertOfTile (p.val / 256) = 7; unfold expertOfTile; split_ifs <;> omega)]

/-- THE REFERENCE'S RESULT is the specification of its three arguments. -/
theorem result_eq (x0 : (⟨S16384x1024, .f32⟩ : BufTy).Contents (Elt Ideal)) (x1 : (⟨S8x4096x1024, .f32⟩ : BufTy).Contents (Elt Ideal)) (x2 : (⟨S8x1024x4096, .f32⟩ : BufTy).Contents (Elt Ideal)) :
    val_main_v64 (F := Ideal) x0 x1 x2 = G x0 x1 x2 := by
  funext j
  obtain ⟨p, d, rfl⟩ : ∃ (p : Fin 16384) (d : Fin 1024), j = ix2 p d := ⟨j 0, j 1, eq_ix2 j⟩
  have hp := p.isLt
  by_cases h0 : p.val < 3072
  · exact row_0 x0 x1 x2 p d (by omega) (by omega)
  by_cases h1 : p.val < 4096
  · exact row_1 x0 x1 x2 p d (by omega) (by omega)
  by_cases h2 : p.val < 6656
  · exact row_2 x0 x1 x2 p d (by omega) (by omega)
  by_cases h3 : p.val < 8192
  · exact row_3 x0 x1 x2 p d (by omega) (by omega)
  by_cases h4 : p.val < 10240
  · exact row_4 x0 x1 x2 p d (by omega) (by omega)
  by_cases h5 : p.val < 12288
  · exact row_5 x0 x1 x2 p d (by omega) (by omega)
  by_cases h6 : p.val < 14848
  · exact row_6 x0 x1 x2 p d (by omega) (by omega)
  · exact row_7 x0 x1 x2 p d (by omega) (by omega)

end Cert.ReferenceIdeal.RefValue

end
-- ==== Proof.lean ====
/-
  A switch-routed expert layer: 16384 token rows are dealt to 8 experts in consecutive runs (3072, 1024, 2560, 1536,
  2048, 2048, 2560 and 1536 rows), and the row `p` of a token owned by expert `e` becomes

      out[p, d] = Σ_f  max (Σ_k x[p, k] · wi[e, f, k], 0) · wo[e, d, f].

  The kernel walks the rows in 64 tiles of 256; two constant tables tell it, tile by tile, which rows to take and
  which expert's matrices to use, and every run is a whole number of tiles, so a tile never straddles two experts.
  The reference cuts the rows at the run boundaries, applies each expert's two matrices to its run, and lays the
  results end to end.  Over the extended reals a change of float width is the identity and a matrix product is its
  plain sum of products, so both are the one function `Cert.Spec.G` of the three argument arrays:
  `Cert.KernelIdeal.Blocks.run` for the kernel (its 64 blocks, each the specification on its rows, tile the array) and
  `Cert.ReferenceIdeal.RefValue.result_eq` for the reference (an entry of the concatenation is an entry of the run its
  row falls in).  No law beyond the reindexing of the two sums is used, so the finiteness of the inputs is never
  opened.  The frames hold because the tables, being constants, keep every block inside its array
  (`Tables.ok`); the idealization rewrote nothing, so there is nothing to preserve.
-/
import proofs.«139479_j69965017252291_2_alg».proof.Defs
import proofs.«139479_j69965017252291_2_alg».proof.Proof.Gen.Kernel
import proofs.«139479_j69965017252291_2_alg».proof.Proof.Gen.Kernel.Skeleton
import proofs.«139479_j69965017252291_2_alg».proof.Proof.Gen.Kernel.Launch
import proofs.«139479_j69965017252291_2_alg».proof.Proof.Gen.Kernel.Points
import proofs.«139479_j69965017252291_2_alg».proof.Proof.Gen.Kernel.Frame
import proofs.«139479_j69965017252291_2_alg».proof.Proof.Gen.KernelIdeal
import proofs.«139479_j69965017252291_2_alg».proof.Proof.Gen.KernelIdeal.Skeleton
import proofs.«139479_j69965017252291_2_alg».proof.Proof.Gen.KernelIdeal.Launch
import proofs.«139479_j69965017252291_2_alg».proof.Proof.Gen.KernelIdeal.Points
import proofs.«139479_j69965017252291_2_alg».proof.Proof.Gen.KernelIdeal.Frame
import proofs.«139479_j69965017252291_2_alg».proof.Proof.Gen.ReferenceIdeal
import proofs.«139479_j69965017252291_2_alg».proof.Proof.Gen.Pre_finite_inputs
import proofs.«139479_j69965017252291_2_alg».proof.Proof.Gen.ReferenceIdeal.Run
import proofs.«139479_j69965017252291_2_alg».proof.Proof.Gen.ReferenceIdeal.Read
import proofs.«139479_j69965017252291_2_alg».proof.Proof.TablesBits
import proofs.«139479_j69965017252291_2_alg».proof.Proof.TablesIdeal
import proofs.«139479_j69965017252291_2_alg».proof.Proof.Blocks
import proofs.«139479_j69965017252291_2_alg».proof.Proof.RefValue
import Idealize.ShloMosaic.Adequacy
import Idealize.ShloMosaic.Init

noncomputable section

namespace Cert.Proof

open Idealize.ShloMosaic Idealize.SL.Sem

/-- The kernel as printed runs and leaves its arguments alone: the tables keep every block inside its array. -/
theorem frame_kernel : Cert.frame_Kernel := fun m ρ _ => Cert.Kernel.Gen.frame m ρ (Cert.Kernel.Tables.ok m)

/-- So does the kernel read over the extended reals. -/
theorem frame_kernelIdeal : Cert.frame_KernelIdeal := fun m ρ _ =>
  Cert.KernelIdeal.Gen.frame m ρ (Cert.KernelIdeal.Tables.ok m)

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification of their (agreeing) arguments in the result array. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v64_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
